-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S2x4096 : Shape := ⟨2, ![2, 4096]⟩
abbrev S8192x1024 : Shape := ⟨2, ![8192, 1024]⟩
abbrev S2x1024 : Shape := ⟨2, ![2, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg1 : IVec S2x4096 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S2x4096 32 := broadcastInDim S2x4096 ![] bcast_S_S2x4096 main_c_8
  let main_v25 : IVec S2x4096 1 := cmpi .sge main_arg1 main_v24
  let main_c_9 : IVec S_ 1 := constantI S_ 1 1#1
  let main_v26 : IVec S_ 1 := (fun x v => Host.reduce IntOp.andi x v reducesTo_S2x4096_S_d0_1 h_S_) main_v25 main_c_9
  let main_v27 : IVec S_ 1 := andi main_v23 main_v26
  let main_c_10 : IVec S_ 32 := constantI S_ 32 2#32
  let main_v28 : IVec S2x4096 32 := broadcastInDim S2x4096 ![] bcast_S_S2x4096 main_c_10
  let main_v29 : IVec S2x4096 1 := cmpi .slt main_arg1 main_v28
  let main_c_11 : IVec S_ 1 := constantI S_ 1 1#1
  let main_v30 : IVec S_ 1 := (fun x v => Host.reduce IntOp.andi x v reducesTo_S2x4096_S_d0_1 h_S_) main_v29 main_c_11
  let main_v31 : IVec S_ 1 := andi main_v27 main_v30
  main_v31

def fn {F : FTy → Type} [FloatOps F] (main_arg0 : FVec F S2x4096x1024 .f32) (main_arg1 : IVec S2x4096 32) (main_arg2 : FVec F S8192x1024 .f32) (main_arg3 : FVec F S2x1024 .f32) (main_arg4 : FVec F S1024 .f32) (main_arg5 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S2x4096x1024 : Shape := ⟨3, ![2, 4096, 1024]⟩
abbrev S2x4096 : Shape := ⟨2, ![2, 4096]⟩
abbrev S8192x1024 : Shape := ⟨2, ![8192, 1024]⟩
abbrev S2x1024 : Shape := ⟨2, ![2, 1024]⟩
abbrev S1024 : Shape := ⟨1, ![1024]⟩
abbrev S2x4096x1 : Shape := ⟨3, ![2, 4096, 1]⟩
abbrev S1x1024 : Shape := ⟨2, ![1, 1024]⟩
abbrev S2x512x1024 : Shape := ⟨3, ![2, 512, 1024]⟩
abbrev S2x512x1 : Shape := ⟨3, ![2, 512, 1]⟩
abbrev S2x520x1024 : Shape := ⟨3, ![2, 520, 1024]⟩
abbrev S2 : Shape := ⟨1, ![2]⟩
abbrev S1 : Shape := ⟨1, ![1]⟩
abbrev S_ : Shape := ⟨0, ![]⟩
abbrev S1x520x1024 : Shape := ⟨3, ![1, 520, 1024]⟩
abbrev S520x1024 : Shape := ⟨2, ![520, 1024]⟩
abbrev S1x512x1024 : Shape := ⟨3, ![1, 512, 1024]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S2x4096, .f32⟩
  | .hbm, ⟨7, _⟩ => ⟨S2x4096x1, .f32⟩
  | .hbm, ⟨8, _⟩ => ⟨S1x1024, .f32⟩
  | .hbm, ⟨9, _⟩ => ⟨S1x1024, .f32⟩
  | .hbm, ⟨10, _⟩ => ⟨S2x4096x1024, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1, .f32⟩
  | .local _ .vmem, ⟨3, _⟩ => ⟨S2x512x1, .f32⟩
  | .local _ .vmem, ⟨4, _⟩ => ⟨S2x1024, .f32⟩
  | .local _ .vmem, ⟨5, _⟩ => ⟨S1x1024, .f32⟩
  | .local _ .vmem, ⟨6, _⟩ => ⟨S1x1024, .f32⟩
  | .local _ .vmem, ⟨7, _⟩ => ⟨S2x512x1024, .f32⟩
  | .local _ .vmem, ⟨8, _⟩ => ⟨S2x512x1024, .f32⟩
  | .local _ .vmem, ⟨9, _⟩ => ⟨S2x520x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_44 : BitVec 32 := 0#32
  let c0_i32_45 : BitVec 32 := 0#32
  ![v2.toNat, 0, 0]
def k0_off3 (i : grid0.Coords) : Fin 2 → Nat :=
  let arg0 : BitVec 32 := BitVec.ofNat 32 (i 0).val
  let c1_i32_42 : BitVec 32 := 1#32
  let v94 : BitVec 32 := Scalar.addi arg0 c1_i32_42
  let c512_i32_43 : BitVec 32 := 512#32
  let v95 : BitVec 32 := Scalar.muli v94 c512_i32_43
  let c0_i32_46 : BitVec 32 := 0#32
  ![v95.toNat, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off6 (i : grid0.Coords) : Fin 2 → Nat :=
  let arg0 : BitVec 32 := BitVec.ofNat 32 (i 0).val
  let c512_i32 : BitVec 32 := 512#32
  let v10 : BitVec 32 := Scalar.muli arg0 c512_i32
  let c0_i32_6 : BitVec 32 := 0#32
  ![v10.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v16 : Index := Scalar.indexCast v0
  let c1 : Index := 1#32
  let c0 : Index := 0#32
  ![v16.toNat, 1, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S2x4096_S2x4096x1_0_1 : S2x4096.BroadcastsInDim S2x4096x1 (![0, 1] : Fin 2 → Fin S2x4096x1.rank)
  shapeCasts_S1024_S1x1024 : S1024.ShapeCasts S1x1024
  inb_S2_S1_0 : ∀ a, (![0] : Fin 1 → Nat) a + S1.size a ≤ S2.size a
  squeezes_S1_S_ : S1.Squeezes S_
  inb_S2x520x1024_S1x520x1024_0_0_0 : ∀ a, (![0, 0, 0] : Fin 3 → Nat) a + S1x520x1024.size a ≤ S2x520x1024.size a
  squeezes_S1x520x1024_S520x1024 : S1x520x1024.Squeezes S520x1024
  inb_S8192x1024_S520x1024_0_0 : ∀ a, (![0, 0] : Fin 2 → Nat) a + S520x1024.size a ≤ S8192x1024.size a
  h_S1x512x1024 : 0 < S1x512x1024.numel
  shapeCasts_S1x512x1024_S512x1024 : S1x512x1024.ShapeCasts S512x1024
  inb_S2x1024_S1x1024_0_0 : ∀ a, (![0, 0] : Fin 2 → Nat) a + S1x1024.size a ≤ S2x1024.size a
  h_S1x1024 : 0 < S1x1024.numel
  inb_S2x1024_S1x1024_1_0 : ∀ a, (![1, 0] : Fin 2 → Nat) a + S1x1024.size a ≤ S2x1024.size a
  inb_S1x1024_S1x1024_0_0 : ∀ a, (![0, 0] : Fin 2 → Nat) a + S1x1024.size a ≤ S1x1024.size a
  shapeCasts_S1x1024_S1x1024 : S1x1024.ShapeCasts S1x1024
  inb_S2x512x1024_S1x512x1024_0_0_0 : ∀ a, (![0, 0, 0] : Fin 3 → Nat) a + S1x512x1024.size a ≤ S2x512x1024.size a
  broadcasts_S1x1024_S512x1024 : S1x1024.Broadcasts S512x1024
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  broadcasts_S512x1_S512x1024 : S512x1.Broadcasts S512x1024
  reduces_S512x1024_S512 : S512x1024.Reduces [1] S512
  shapeCasts_S512_S512x1 : S512.ShapeCasts S512x1
  shapeCasts_S512x1024_S1x512x1024 : S512x1024.ShapeCasts S1x512x1024
  inb_S2x512x1024_S1x512x1024_1_0_0 : ∀ a, (![1, 0, 0] : Fin 3 → Nat) a + S1x512x1024.size a ≤ S2x512x1024.size a
  inb_S2x512x1_S1x512x1_1_0_0 : ∀ a, (![1, 0, 0] : Fin 3 → Nat) a + S1x512x1.size a ≤ S2x512x1.size a
  hcc0_scratch1 : 9 + S2.numel ≤ 11
  hrank0 : 0 < grid0.rank
  k0_off1_inb : ∀ i : grid0.Coords, ∀ (k0_h2 : k0_cond2 i = 1#1), ∀ a, (k0_off1 i) a + S1.size a ≤ S2.size a
  k0_off2_inb : ∀ i : grid0.Coords, ∀ (k0_h2 : k0_cond2 i = 1#1), ∀ a, (k0_off2 i) a + S1x520x1024.size a ≤ S2x520x1024.size a
  k0_off3_inb : ∀ i : grid0.Coords, ∀ (k0_h2 : k0_cond2 i = 1#1), ∀ a, (k0_off3 i) a + S520x1024.size a ≤ S8192x1024.size a
  k0_off4_inb : ∀ i : grid0.Coords, ∀ a, (k0_off4 i) a + S1.size a ≤ S2.size a
  k0_off5_inb : ∀ i : grid0.Coords, ∀ a, (k0_off5 i) a + S1x520x1024.size a ≤ S2x520x1024.size a
  k0_off6_inb : ∀ i : grid0.Coords, ∀ a, (k0_off6 i) a + S520x1024.size a ≤ S8192x1024.size a
  k0_off7_inb : ∀ i : grid0.Coords, ∀ a, (k0_off7 i) a + S1x512x1024.size a ≤ S2x520x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S2x4096x1024.size a
  hwx0_0 : ∀ i : grid0.Coords, EltTy.bits .f32 = 32 ∨ (Rect.block (s := S2x4096x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S2x512x1.size a ≤ S2x4096x1.size a
  hwx0_1 : ∀ i : grid0.Coords, EltTy.bits .f32 = 32 ∨ (Rect.block (s := S2x4096x1) S2x512x1.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S2x1024.size a ≤ S2x1024.size a
  hwx0_2 : ∀ i : grid0.Coords, EltTy.bits .f32 = 32 ∨ (Rect.block (s := S2x1024) S2x1024.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x1024.size a ≤ S1x1024.size a
  hwx0_3 : ∀ i : grid0.Coords, EltTy.bits .f32 = 32 ∨ (Rect.block (s := S1x1024) S1x1024.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x1024.size a ≤ S1x1024.size a
  hwx0_4 : ∀ i : grid0.Coords, EltTy.bits .f32 = 32 ∨ (Rect.block (s := S1x1024) S1x1024.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S2x512x1024.size a ≤ S2x4096x1024.size a
  hwx0_5 : ∀ i : grid0.Coords, EltTy.bits .f32 = 32 ∨ (Rect.block (s := S2x4096x1024) S2x512x1024.size (cc0_transform_6 i) (hinb0_5 i)).WholeWords (EltTy.packing .f32)

variable [Facts₀]

abbrev cc0_scratch1 : DmaSems sig S2 := SemArray.consecutive 9 S2 hcc0_scratch1

abbrev win0_0 : Pipeline.Window sig grid0 :=
  Pipeline.Window.ofSpec (Memref.whole main_arg0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x1.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x1024.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x512x1024.size cc0_transform_6 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S2x4096 : Shape := ⟨2, ![2, 4096]⟩
abbrev S8192x1024 : Shape := ⟨2, ![8192, 1024]⟩
abbrev S2x1024 : Shape := ⟨2, ![2, 1024]⟩
abbrev S1024 : Shape := ⟨1, ![1024]⟩
abbrev S4096 : Shape := ⟨1, ![4096]⟩
abbrev S_ : Shape := ⟨0, ![]⟩
abbrev S1x4096 : Shape := ⟨2, ![1, 4096]⟩
abbrev S2x4096x1 : Shape := ⟨3, ![2, 4096, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S1x4096, .i32⟩
  | .hbm, ⟨11, _⟩ => ⟨S2x4096, .i32⟩
  | .hbm, ⟨12, _⟩ => ⟨S_, .i32⟩
  | .hbm, ⟨13, _⟩ => ⟨S2x4096, .i32⟩
  | .hbm, ⟨14, _⟩ => ⟨S2x4096, .i1⟩
  | .hbm, ⟨15, _⟩ => ⟨S_, .i32⟩
  | .hbm, ⟨16, _⟩ => ⟨S2x4096, .i32⟩
  | .hbm, ⟨17, _⟩ => ⟨S2x4096, .i32⟩
  | .hbm, ⟨18, _⟩ => ⟨S2x4096, .i32⟩
  | .hbm, ⟨19, _⟩ => ⟨S2x4096x1, .i32⟩
  | .hbm, ⟨20, _⟩ => ⟨S1, .i32⟩
  | .hbm, ⟨21, _⟩ => ⟨S_, .i32⟩
  | .hbm, ⟨22, _⟩ => ⟨S2x4096x1, .i32⟩
  | .hbm, ⟨23, _⟩ => ⟨S2x4096x1, .i1⟩
  | .hbm, ⟨24, _⟩ => ⟨S1x1x1, .i32⟩
  | .hbm, ⟨25, _⟩ => ⟨S2x4096x1, .i32⟩
  | .hbm, ⟨26, _⟩ => ⟨S2x4096x1, .i1⟩
  | .hbm, ⟨27, _⟩ => ⟨S2x4096x1, .i1⟩
  | .hbm, ⟨28, _⟩ => ⟨S_, .i1⟩
  | .hbm, ⟨29, _⟩ => ⟨S2x4096, .i1⟩
  | .hbm, ⟨30, _⟩ => ⟨S2x4096x1024, .f32⟩
  | .hbm, ⟨31, _⟩ => ⟨S2x4096x1024, .i1⟩
  | .hbm, ⟨32, _⟩ => ⟨S_, .f32⟩
  | .hbm, ⟨33, _⟩ => ⟨S2x4096x1024, .f32⟩
  | .hbm, ⟨34, _⟩ => ⟨S2x4096x1024, .f32⟩
  | .hbm, ⟨35, _⟩ => ⟨S_, .i32⟩
  | .hbm, ⟨36, _⟩ => ⟨S2x4096, .i32⟩
  | .hbm, ⟨37, _⟩ => ⟨S2x4096, .i1⟩
  | .hbm, ⟨38, _⟩ => ⟨S_, .i32⟩
  | .hbm, ⟨39, _⟩ => ⟨S2x4096, .i32⟩
  | .hbm, ⟨40, _⟩ => ⟨S2x4096, .i32⟩
  | .hbm, ⟨41, _⟩ => ⟨S2x4096, .i32⟩
  | .hbm, ⟨42, _⟩ => ⟨S2x4096x1, .i32⟩
  | .hbm, ⟨43, _⟩ => ⟨S1, .i32⟩
  | .hbm, ⟨44, _⟩ => ⟨S_, .i32⟩
  | .hbm, ⟨45, _⟩ => ⟨S2x4096x1, .i32⟩
  | .hbm, ⟨46, _⟩ => ⟨S2x4096x1, .i1⟩
  | .hbm, ⟨47, _⟩ => ⟨S1x1x1, .i32⟩
  | .hbm, ⟨48, _⟩ => ⟨S2x4096x1, .i32⟩
  | .hbm, ⟨49, _⟩ => ⟨S2x4096x1, .i1⟩
  | .hbm, ⟨50, _⟩ => ⟨S2x4096x1, .i1⟩
  | .hbm, ⟨51, _⟩ => ⟨S_, .i1⟩
  | .hbm, ⟨52, _⟩ => ⟨S2x4096, .i1⟩
  | .hbm, ⟨53, _⟩ => ⟨S2x4096x1024, .f32⟩
  | .hbm, ⟨54, _⟩ => ⟨S2x4096x1024, .i1⟩
  | .hbm, ⟨55, _⟩ => ⟨S_, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S_, .f32⟩
  | .hbm, ⟨64, _⟩ => ⟨S2x4096x1, .f32⟩
  | .hbm, ⟨65, _⟩ => ⟨S2x4096x1, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S_, .f32⟩
  | .hbm, ⟨70, _⟩ => ⟨S2x4096, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1024, .f32⟩
  | .hbm, ⟨76, _⟩ => ⟨S2x4096x1024, .f32⟩
  | .hbm, ⟨77, _⟩ => ⟨S_, .f32⟩
  | .hbm, ⟨78, _⟩ => ⟨S2x4096x1, .f32⟩
  | .hbm, ⟨79, _⟩ => ⟨S2x4096x1, .f32⟩
  | .hbm, ⟨80, _⟩ => ⟨S2x4096x1, .f32⟩
  | .hbm, ⟨81, _⟩ => ⟨S2x4096x1024, .f32⟩
  | .hbm, ⟨82, _⟩ => ⟨S2x4096x1024, .f32⟩
  | .hbm, ⟨83, _⟩ => ⟨S1x1x1024, .f32⟩
  | .hbm, ⟨84, _⟩ => ⟨S2x4096x1024, .f32⟩
  | .hbm, ⟨85, _⟩ => ⟨S2x4096x1024, .f32⟩
  | .hbm, ⟨86, _⟩ => ⟨S1x1x1024, .f32⟩
  | .hbm, ⟨87, _⟩ => ⟨S2x4096x1024, .f32⟩
  | .hbm, ⟨88, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst : Ref sig .tc := ⟨.hbm, 60, rfl⟩
abbrev main_v9 : Ref sig .tc := ⟨.hbm, 61, rfl⟩
abbrev main_v10 : Ref sig .tc := ⟨.hbm, 62, rfl⟩
abbrev main_cst_0 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_1 : Ref sig .tc := ⟨.hbm, 69, rfl⟩
abbrev main_v16 : Ref sig .tc := ⟨.hbm, 70, rfl⟩
abbrev main_v17 : Ref sig .tc := ⟨.hbm, 71, rfl⟩
abbrev main_cst_2 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_cst_3 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2x4096_0_1 : S1x4096.BroadcastsInDim S2x4096 (![0, 1] : Fin 2 → Fin S2x4096.rank)
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S1_S1x1x1_2 : S1.BroadcastsInDim S1x1x1 (![2] : Fin 1 → Fin S1x1x1.rank)
  bcast_S1x1x1_S2x4096x1_0_1_2 : S1x1x1.BroadcastsInDim S2x4096x1 (![0, 1, 2] : Fin 3 → Fin S2x4096x1.rank)
  reducesTo_S2x4096x1_S2x4096_d2 : S2x4096x1.ReducesTo [2] S2x4096
  h_S_ : 0 < S_.numel
  bcast_S2x4096_S2x4096x1024_0_1 : S2x4096.BroadcastsInDim S2x4096x1024 (![0, 1] : Fin 2 → Fin S2x4096x1024.rank)
  bcast_S_S2x4096x1024 : S_.BroadcastsInDim S2x4096x1024 (![] : Fin 0 → Fin S2x4096x1024.rank)
  reducesTo_S2x4096x1024_S2x4096_d2 : S2x4096x1024.ReducesTo [2] S2x4096
  bcast_S2x4096x1_S2x4096x1024_0_1_2 : S2x4096x1.BroadcastsInDim S2x4096x1024 (![0, 1, 2] : Fin 3 → Fin S2x4096x1024.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  gather_S8192x1024_S2x4096x1_S2x4096x1024_2_0_n_n_0_2_11024_wf : GatherDims.WF S8192x1024 S2x4096x1 S2x4096x1024 [2] [0] [] [0] [] 2 ![1, 1024]
  gather_S2x1024_S2x4096x1_S2x4096x1024_2_0_n_n_0_2_11024_wf : GatherDims.WF S2x1024 S2x4096x1 S2x4096x1024 [2] [0] [] [0] [] 2 ![1, 1024]

variable [Facts₀]

def gather_S8192x1024_S2x4096x1_S2x4096x1024_2_0_n_n_0_2_11024 : GatherDims S8192x1024 S2x4096x1 S2x4096x1024 where
  offsetDims := [2]
  collapsedSliceDims := [0]
  operandBatchingDims := []
  startIndicesBatchingDims := []
  startIndexMap := [0]
  indexVectorDim := 2
  sliceSizes := ![1, 1024]
  wf := gather_S8192x1024_S2x4096x1_S2x4096x1024_2_0_n_n_0_2_11024_wf
def gather_S2x1024_S2x4096x1_S2x4096x1024_2_0_n_n_0_2_11024 : GatherDims S2x1024 S2x4096x1 S2x4096x1024 where
  offsetDims := [2]
  collapsedSliceDims := [0]
  operandBatchingDims := []
  startIndicesBatchingDims := []
  startIndexMap := [0]
  indexVectorDim := 2
  sliceSizes := ![1, 1024]
  wf := gather_S2x1024_S2x4096x1_S2x4096x1024_2_0_n_n_0_2_11024_wf

class Facts : Prop extends Facts₀ where

variable [Facts]
-- ==== Proof.KerSlot.lean ====
/-
  The position rows as the kernel body reads them.

  The position table stays in the large memory and is streamed, 520 rows at a time, through a two-slot buffer: at grid
  point t the rows [512 t, 512 t + 520) of the table have landed in slot t mod 2, and the body loads rows 1 … 512 of
  that slot. So the value loaded at block-local index (0, p, q) is the table's entry (512 t + p + 1, q): the one-row
  shift of the position ids against the sequence positions costs nothing but the offset of the load.

  Three placements are composed: a slot, a squeezed slice of the [2, 520, 1024] buffer, places its local index (r, q) at
  buffer index (s, r, q); the load's box at offsets (s, 1, 0) places (0, p, q) at (s, p + 1, q); block b of the table,
  the transfer's source, places (r, q) at table index (512 b + r, q).
-/
import proofs.«124012_g4166118277671_cont_sun_m_48_6_alg».proof.Proof.Gen.KernelIdeal.Value
import Idealize.ShloMosaic.Lib.ValueIdx

set_option maxRecDepth 16384
noncomputable section
namespace Cert.KernelIdeal.Slot
open Cert.KernelIdeal Cert.KernelIdeal.Gen Idealize.ShloMosaic Idealize.ShloMosaic.TcCoe Idealize.SL.Sem Idealize.ShloMosaic.ValueIdx
variable {F : FTy → Type} [FloatOps F]

/-- Slot s places its local index (r, q) at buffer index (s, r, q). -/
theorem slot_emb (s : Fin 2) (z : S520x1024.Idx) (a : Fin 3) :
    ((rslot0_0 s).view.emb z a).val = (![s.val, (z 0).val, (z 1).val] : Fin 3 → Nat) a := by
  unfold rslot0_0 scM0_0
  show (![s.val, 0, 0] : Fin 3 → Nat) a + 1 * ((Shape.reshapeEquiv (Shape.Squeezes.numel_eq squeezes_S1x520x1024_S520x1024) z) a).val = _
  rw [Shape.reshapeEquiv_cons_one (n := 2) (d := ![520, 1024])]
  refine Fin.cases ?_ (fun i => ?_) a
  · show s.val + 1 * 0 = s.val
    omega
  · refine Fin.cases ?_ (fun j => ?_) i
    · show 0 + 1 * (z 0).val = (z 0).val
      omega
    · have hj : j = 0 := Subsingleton.elim _ _
      subst hj
      show 0 + 1 * (z 1).val = (z 1).val
      omega

/-- The slot row a load of rows 1..512 reads at block-local index y: one row further down. -/
def below (y : S1x512x1024.Idx) : S520x1024.Idx :=
  ix2 (⟨(y 1).val + 1, by have : (y 1).val < 512 := (y 1).isLt; omega⟩ : Fin 520) (⟨(y 2).val, (y 2).isLt⟩ : Fin 1024)

/-- A load of rows 1 … 512 of slot s, through the whole buffer, of contents written whole through the slot: the payload one row
    further down. -/
theorem slot_read (s : Fin 2) (x : S520x1024.Idx → Elt F .f32) (off : Fin 3 → Nat) (inb) (hoff : off = ![s.val, 1, 0]) (y : S1x512x1024.Idx) :
    scM0_0.view.readAt (Elt F) (Rect.unit (s := S2x520x1024) off S1x512x1024.size inb).toLoadRect
        ((rslot0_0 s).view.writes (Elt F) (rslot0_0 s).view.junk [⟨Rect.whole S520x1024, x⟩]) y
      = x (below y) := by
  subst hoff
  simp only [View.readAt, scM0_0, Memref.view_whole, View.read_whole]
  have e : (Rect.unit (s := S2x520x1024) ![s.val, 1, 0] S1x512x1024.size inb).toLoadRect.idx y
      = (rslot0_0 s).view.emb (below y) := by
    funext a
    apply Fin.ext
    rw [slot_emb]
    have h0 : (y 0).val < 1 := (y 0).isLt
    refine Fin.cases ?_ (fun i => ?_) a
    · show s.val + 1 * (y 0).val = s.val
      omega
    · refine Fin.cases ?_ (fun j => ?_) i
      · show 1 + 1 * (y 1).val = (y 1).val + 1
        omega
      · have hj : j = 0 := Subsingleton.elim _ _
        subst hj
        show 0 + 1 * (y 2).val = (y 2).val
        omega
  rw [e]
  exact congrFun (View.read_writes_whole (rslot0_0 s).view ((rslot0_0 s).view.junk (Val := Elt F)) x) _

/-- Block b of the table, as a transfer's source, places its local index (r, q) at table index (512 b + r, q). -/
theorem src_emb (b : Fin 8) (z : S520x1024.Idx) (a : Fin 2) :
    ((srcB0_0 b).view.emb z a).val = (![512 * b.val + (z 0).val, (z 1).val] : Fin 2 → Nat) a := by
  unfold srcB0_0 hbM0_0
  show (![512 * b.val, 0] : Fin 2 → Nat) a + 1 * (z a).val = _
  refine Fin.cases ?_ (fun i => ?_) a
  · show 512 * b.val + 1 * (z 0).val = 512 * b.val + (z 0).val
    omega
  · have hi : i = 0 := Subsingleton.elim _ _
    subst hi
    show 0 + 1 * (z 1).val = (z 1).val
    omega

/-- The table row that block-local row y of point t reads: row 512 t + y₁ + 1. -/
def tblIdx (t : Fin cfg0.N) (y : S1x512x1024.Idx) : S8192x1024.Idx :=
  ix2 (⟨512 * t.val + (y 1).val + 1, by
      have : (y 1).val < 512 := (y 1).isLt
      have : t.val < 8 := lt_of_lt_of_eq t.isLt (show cfg0.N = 8 from N_0)
      omega⟩ : Fin 8192) (⟨(y 2).val, (y 2).isLt⟩ : Fin 1024)

/-- The slot row read at block-local index y, placed in the table by the block waited at point t, is the table's row
    512 t + y₁ + 1 (the step's block number is t itself: there are 8 blocks and 8 points). -/
theorem src_emb_below (t : Fin cfg0.N) (y : S1x512x1024.Idx) :
    ((srcB0_0 (Ring.bk 8 t.val)).view.emb (below y) : S8192x1024.Idx) = tblIdx t y := by
  have ht : t.val < 8 := lt_of_lt_of_eq t.isLt (show cfg0.N = 8 from N_0)
  have hb : (Ring.bk 8 t.val).val = t.val := Nat.mod_eq_of_lt ht
  refine funext fun (a : Fin 2) => Fin.ext ((src_emb (Ring.bk 8 t.val) (below y) a).trans ?_)
  refine Fin.cases ?_ (fun i => ?_) a
  · show 512 * (Ring.bk 8 t.val).val + ((y 1).val + 1) = 512 * t.val + (y 1).val + 1
    rw [hb]; omega
  · have hi : i = 0 := Subsingleton.elim _ _
    subst hi
    rfl

/-- What the body loads from the two-slot buffer at point t: the table's rows 512 t + 1 … 512 t + 512. -/
theorem ring_load (c : Dev nD) (t : Fin cfg0.N) (W : HbBuf0 (F := F) c hbM0_0) (off : Fin 3 → Nat) (inb)
    (hoff : off = ![(Ring.sl 2 t.val).val, 1, 0]) (y : S1x512x1024.Idx) :
    scM0_0.view.readAt (Elt F) (Rect.unit (s := S2x520x1024) off S1x512x1024.size inb).toLoadRect
        ((rslot0_0 (Ring.sl 2 t.val)).view.writes (Elt F) (rslot0_0 (Ring.sl 2 t.val)).view.junk
          [⟨Rect.whole S520x1024, ReadAs.same.apply ((srcB0_0 (Ring.bk 8 t.val)).view.read (Elt F) W)⟩]) y
      = W (tblIdx t y) := by
  rw [slot_read _ _ _ _ hoff y]
  show W ((srcB0_0 (Ring.bk 8 t.val)).view.emb (below y)) = _
  exact congrArg W (src_emb_below t y)
end Cert.KernelIdeal.Slot
end
-- ==== Proof.KerOut.lean ====
/-
  What the kernel body leaves in the output block at a grid point, as the two batch rows it stores.

  At every point the body makes two stores into the [2, 512, 1024] output block: the first batch row (0, ·, ·), then the
  second (1, ·, ·). Each stored row is a term of the point's staged inputs — x's block, the id column's block, the two
  type rows, gamma, beta — and of the 512 position rows the point reads from the two-slot buffer (`ringRead`, which is
  the table's rows 512 t + 1 … 512 t + 512). The three control cases of the body (first point, middle points, last point)
  differ only in which transfers they start: the stored rows are the same terms in each (`out_A`, `out_B`, `out_C`).
  Read at an index, the block is the first stored row at (0, p, q) and the second at (1, p, q) (`canon_pieces_apply`).
-/
import proofs.«124012_g4166118277671_cont_sun_m_48_6_alg».proof.Proof.KerSlot

set_option maxRecDepth 16384
noncomputable section
namespace Cert.KernelIdeal.Block
open Cert.KernelIdeal Cert.KernelIdeal.Gen Cert.KernelIdeal.Slot Idealize.ShloMosaic Idealize.ShloMosaic.TcCoe Idealize.ShloMosaic.Tactic Idealize.SL.Sem Idealize.ShloMosaic.ValueIdx
variable {F : FTy → Type} [FloatOps F]

/-- What the body loads from the two-slot buffer at point t, of the table contents W. -/
abbrev ringRead (c : Dev nD) (t : Fin cfg0.N) (W : HbBuf0 (F := F) c hbM0_0) : Vec F S1x512x1024 .f32 :=
  View.readAt (Elt F) (View.whole cc0_scratch0)
    (Rect.unit (s := S2x520x1024) (k0_off7 (grid0.coords t)) S1x512x1024.size (k0_off7_inb (grid0.coords t))).toLoadRect
    ((rslot0_0 (Ring.sl 2 t.val)).view.writes (Elt F) (rslot0_0 (Ring.sl 2 t.val)).view.junk
      [⟨Rect.whole S520x1024, ReadAs.same.apply ((srcB0_0 (Ring.bk 8 t.val)).view.read (Elt F) W)⟩])

/-- It is the table's rows 512 t + 1 … 512 t + 512. -/
theorem ringRead_eq (c : Dev nD) (t : Fin cfg0.N) (W : HbBuf0 (F := F) c hbM0_0) :
    ringRead c t W = fun y => W (tblIdx t y) :=
  funext fun y => ring_load c t W _ _ (coff0_0_10 t) y

section Rows
variable (x0 : Vec F S2x512x1024 .f32) (x1 : Vec F S2x512x1 .f32) (x2 : Vec F S2x1024 .f32) (x3 x4 : Vec F S1x1024 .f32)
  (P : Vec F S1x512x1024 .f32)

/-- The block's first batch row as the body stores it: of x's first batch row, the position rows P, the two type rows, the
    first batch row of the id column, gamma and beta. -/
def row0 : FVec F S1x512x1024 .f32 :=
  k0_pay7
    (k0_pay3 (View.ld x2 (Rect.unit ![0, 0] ![1, 1024] inb_S2x1024_S1x1024_0_0))
      (View.ld x2 (Rect.unit ![1, 0] ![1, 1024] inb_S2x1024_S1x1024_1_0)))
    (k0_pay4 (View.ld x3 (Rect.unit ![0, 0] ![1, 1024] inb_S1x1024_S1x1024_0_0)))
    (k0_pay5 (View.ld x4 (Rect.unit ![0, 0] ![1, 1024] inb_S1x1024_S1x1024_0_0)))
    (k0_pay6 P (View.ld x2 (Rect.unit ![0, 0] ![1, 1024] inb_S2x1024_S1x1024_0_0))
      (View.ld x0 (Rect.unit ![0, 0, 0] ![1, 512, 1024] inb_S2x512x1024_S1x512x1024_0_0_0)))
    (View.ld x1 (Rect.unit ![0, 0, 0] ![1, 512, 1] inb_S2x512x1_S1x512x1_0_0_0))

/-- The rows of the second batch row before normalisation. -/
def emb1 : FVec F S512x1024 .f32 :=
  k0_pay8 (k0_pay2 P) (View.ld x2 (Rect.unit ![0, 0] ![1, 1024] inb_S2x1024_S1x1024_0_0))
    (k0_pay3 (View.ld x2 (Rect.unit ![0, 0] ![1, 1024] inb_S2x1024_S1x1024_0_0))
      (View.ld x2 (Rect.unit ![1, 0] ![1, 1024] inb_S2x1024_S1x1024_1_0)))
    (View.ld x0 (Rect.unit ![1, 0, 0] ![1, 512, 1024] inb_S2x512x1024_S1x512x1024_1_0_0))
    (View.ld x1 (Rect.unit ![1, 0, 0] ![1, 512, 1] inb_S2x512x1_S1x512x1_1_0_0))

/-- The block's second batch row as the body stores it. -/
def row1 : FVec F S1x512x1024 .f32 :=
  k0_pay1 (k0_pay4 (View.ld x3 (Rect.unit ![0, 0] ![1, 1024] inb_S1x1024_S1x1024_0_0)))
    (k0_pay5 (View.ld x4 (Rect.unit ![0, 0] ![1, 1024] inb_S1x1024_S1x1024_0_0)))
    (k0_pay8 (k0_pay2 P) (View.ld x2 (Rect.unit ![0, 0] ![1, 1024] inb_S2x1024_S1x1024_0_0))
      (k0_pay3 (View.ld x2 (Rect.unit ![0, 0] ![1, 1024] inb_S2x1024_S1x1024_0_0))
        (View.ld x2 (Rect.unit ![1, 0] ![1, 1024] inb_S2x1024_S1x1024_1_0)))
      (View.ld x0 (Rect.unit ![1, 0, 0] ![1, 512, 1024] inb_S2x512x1024_S1x512x1024_1_0_0))
      (View.ld x1 (Rect.unit ![1, 0, 0] ![1, 512, 1] inb_S2x512x1_S1x512x1_1_0_0)))
    (k0_pay9 (k0_pay2 P) (View.ld x2 (Rect.unit ![0, 0] ![1, 1024] inb_S2x1024_S1x1024_0_0))
      (k0_pay3 (View.ld x2 (Rect.unit ![0, 0] ![1, 1024] inb_S2x1024_S1x1024_0_0))
        (View.ld x2 (Rect.unit ![1, 0] ![1, 1024] inb_S2x1024_S1x1024_1_0)))
      (View.ld x0 (Rect.unit ![1, 0, 0] ![1, 512, 1024] inb_S2x512x1024_S1x512x1024_1_0_0))
      (View.ld x1 (Rect.unit ![1, 0, 0] ![1, 512, 1] inb_S2x512x1_S1x512x1_1_0_0)))

/-- The two stores of a point, the second batch row's last. -/
def pieces : List (View.Piece (Elt F) S2x512x1024 .f32) :=
  [⟨Rect.unit ![1, 0, 0] ![1, 512, 1024] inb_S2x512x1024_S1x512x1024_1_0_0, row1 x0 x1 x2 x3 x4 P⟩,
   ⟨Rect.unit ![0, 0, 0] ![1, 512, 1024] inb_S2x512x1024_S1x512x1024_0_0_0, row0 x0 x1 x2 x3 x4 P⟩]
end Rows

/-- At a point of case A the block the body leaves is the two stored batch rows, over the table rows the point reads. -/
theorem out_A (c : Dev nD) (t : Fin cfg0.N) (arg1 : Memref sig .tc .vmem S2x512x1024 .f32) (harg1 : arg1.IsWhole) (arg3 : Memref sig .tc .vmem S2x512x1 .f32) (harg3 : arg3.IsWhole) (arg4 : Memref sig .tc .vmem S2x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2x512x1024 .f32) (harg7 : arg7.IsWhole) (hc0 : cond0_0 (grid0.coords t)) (hc1 : cond0_1 (grid0.coords t))
    (x0 : Vec F S2x512x1024 .f32) (x1 : Vec F S2x512x1 .f32) (x2 : Vec F S2x1024 .f32) (x3 : Vec F S1x1024 .f32) (x4 : Vec F S1x1024 .f32) (fh0 : HbBuf0 (F := F) c hbM0_0) :
    out0_A_5 c t arg1 harg1 arg3 harg3 arg4 harg4 arg5 harg5 arg6 harg6 arg7 harg7 hc0 hc1 x0 x1 x2 x3 x4 fh0
      = View.canon (pieces x0 x1 x2 x3 x4 (ringRead c t fh0)) := by
  unfold out0_A_5
  rw [View.read_writes_eq_canon _ _ _ (cover0_A_5 c t arg1 harg1 arg3 harg3 arg4 harg4 arg5 harg5 arg6 harg6 arg7 harg7 hc0 hc1 x0 x1 x2 x3 x4 fh0)]
  unfold kernelRun0_A
  dsimp only
  sl_unfold_words
  simp only [View.readAt_eq_ld, harg1.read_unread, harg3.read_unread, harg4.read_unread, harg5.read_unread, harg6.read_unread]
  rfl

/-- At a point of case B the block the body leaves is the two stored batch rows, over the table rows the point reads. -/
theorem out_B (c : Dev nD) (t : Fin cfg0.N) (arg1 : Memref sig .tc .vmem S2x512x1024 .f32) (harg1 : arg1.IsWhole) (arg3 : Memref sig .tc .vmem S2x512x1 .f32) (harg3 : arg3.IsWhole) (arg4 : Memref sig .tc .vmem S2x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2x512x1024 .f32) (harg7 : arg7.IsWhole) (hc0 : ¬cond0_0 (grid0.coords t)) (hc1 : cond0_1 (grid0.coords t))
    (x0 : Vec F S2x512x1024 .f32) (x1 : Vec F S2x512x1 .f32) (x2 : Vec F S2x1024 .f32) (x3 : Vec F S1x1024 .f32) (x4 : Vec F S1x1024 .f32) (fh0 : HbBuf0 (F := F) c hbM0_0) :
    out0_B_5 c t arg1 harg1 arg3 harg3 arg4 harg4 arg5 harg5 arg6 harg6 arg7 harg7 hc0 hc1 x0 x1 x2 x3 x4 fh0
      = View.canon (pieces x0 x1 x2 x3 x4 (ringRead c t fh0)) := by
  unfold out0_B_5
  rw [View.read_writes_eq_canon _ _ _ (cover0_B_5 c t arg1 harg1 arg3 harg3 arg4 harg4 arg5 harg5 arg6 harg6 arg7 harg7 hc0 hc1 x0 x1 x2 x3 x4 fh0)]
  unfold kernelRun0_B
  dsimp only
  sl_unfold_words
  simp only [View.readAt_eq_ld, harg1.read_unread, harg3.read_unread, harg4.read_unread, harg5.read_unread, harg6.read_unread]
  rfl

/-- At a point of case C the block the body leaves is the two stored batch rows, over the table rows the point reads. -/
theorem out_C (c : Dev nD) (t : Fin cfg0.N) (arg1 : Memref sig .tc .vmem S2x512x1024 .f32) (harg1 : arg1.IsWhole) (arg3 : Memref sig .tc .vmem S2x512x1 .f32) (harg3 : arg3.IsWhole) (arg4 : Memref sig .tc .vmem S2x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2x512x1024 .f32) (harg7 : arg7.IsWhole) (hc0 : ¬cond0_0 (grid0.coords t)) (hc1 : ¬cond0_1 (grid0.coords t))
    (x0 : Vec F S2x512x1024 .f32) (x1 : Vec F S2x512x1 .f32) (x2 : Vec F S2x1024 .f32) (x3 : Vec F S1x1024 .f32) (x4 : Vec F S1x1024 .f32) (fh0 : HbBuf0 (F := F) c hbM0_0) :
    out0_C_5 c t arg1 harg1 arg3 harg3 arg4 harg4 arg5 harg5 arg6 harg6 arg7 harg7 hc0 hc1 x0 x1 x2 x3 x4 fh0
      = View.canon (pieces x0 x1 x2 x3 x4 (ringRead c t fh0)) := by
  unfold out0_C_5
  rw [View.read_writes_eq_canon _ _ _ (cover0_C_5 c t arg1 harg1 arg3 harg3 arg4 harg4 arg5 harg5 arg6 harg6 arg7 harg7 hc0 hc1 x0 x1 x2 x3 x4 fh0)]
  unfold kernelRun0_C
  dsimp only
  sl_unfold_words
  simp only [View.readAt_eq_ld, harg1.read_unread, harg3.read_unread, harg4.read_unread, harg5.read_unread, harg6.read_unread]
  rfl

/-! ## The two pieces read at an index -/

section Canon
variable {α : Type} [Nonempty α]

/-- The second batch row's rectangle places (0, p, q) at (1, p, q). -/
theorem emb_R1 (p : Fin 512) (q : Fin 1024) :
    (Rect.unit (s := S2x512x1024) ![1, 0, 0] ![1, 512, 1024] inb_S2x512x1024_S1x512x1024_1_0_0).emb (ix3 (0 : Fin 1) p q) = ix3 (1 : Fin 2) p q := by
  funext a; apply Fin.ext
  refine Fin.cases ?_ (fun i => ?_) a
  · show 1 + 1 * 0 = 1; rfl
  · refine Fin.cases ?_ (fun j => ?_) i
    · show 0 + 1 * p.val = p.val; omega
    · have hj : j = 0 := Subsingleton.elim _ _
      subst hj
      show 0 + 1 * q.val = q.val; omega

/-- The first batch row's rectangle places (0, p, q) at (0, p, q). -/
theorem emb_R0 (p : Fin 512) (q : Fin 1024) :
    (Rect.unit (s := S2x512x1024) ![0, 0, 0] ![1, 512, 1024] inb_S2x512x1024_S1x512x1024_0_0_0).emb (ix3 (0 : Fin 1) p q) = ix3 (0 : Fin 2) p q := by
  funext a; apply Fin.ext
  refine Fin.cases ?_ (fun i => ?_) a
  · show 0 + 1 * 0 = 0; rfl
  · refine Fin.cases ?_ (fun j => ?_) i
    · show 0 + 1 * p.val = p.val; omega
    · have hj : j = 0 := Subsingleton.elim _ _
      subst hj
      show 0 + 1 * q.val = q.val; omega

/-- An index of the first batch row is not under the second batch row's rectangle. -/
theorem not_mem_R1 (p : Fin 512) (q : Fin 1024) :
    ix3 (0 : Fin 2) p q ∉ (Rect.unit (s := S2x512x1024) ![1, 0, 0] ![1, 512, 1024] inb_S2x512x1024_S1x512x1024_1_0_0).set := by
  rw [Rect.mem_set_unit]
  intro h
  exact absurd (h 0).1 (by show ¬ (1 ≤ 0); decide)
end Canon

/-- One store of the first batch row, read at (0, p, q). -/
theorem canon_R0 (w0 : Vec F S1x512x1024 .f32) (p : Fin 512) (q : Fin 1024) :
    View.canon (Val := Elt F) [(⟨Rect.unit ![0, 0, 0] ![1, 512, 1024] inb_S2x512x1024_S1x512x1024_0_0_0, w0⟩ : View.Piece (Elt F) S2x512x1024 .f32)]
      (ix3 (0 : Fin 2) p q) = w0 (ix3 (0 : Fin 1) p q) := by
  have h := View.canon_cons_emb (Val := Elt F) (e := .f32) (Rect.unit (s := S2x512x1024) ![0, 0, 0] ![1, 512, 1024] inb_S2x512x1024_S1x512x1024_0_0_0) w0 [] (ix3 (0 : Fin 1) p q)
  rw [emb_R0] at h
  exact h

/-- A store of the second batch row, made last, read at (1, p, q). -/
theorem canon_R1 (w1 : Vec F S1x512x1024 .f32) (L : List (View.Piece (Elt F) S2x512x1024 .f32)) (p : Fin 512) (q : Fin 1024) :
    View.canon (Val := Elt F) ((⟨Rect.unit ![1, 0, 0] ![1, 512, 1024] inb_S2x512x1024_S1x512x1024_1_0_0, w1⟩ : View.Piece (Elt F) S2x512x1024 .f32) :: L)
      (ix3 (1 : Fin 2) p q) = w1 (ix3 (0 : Fin 1) p q) := by
  have h := View.canon_cons_emb (Val := Elt F) (e := .f32) (Rect.unit (s := S2x512x1024) ![1, 0, 0] ![1, 512, 1024] inb_S2x512x1024_S1x512x1024_1_0_0) w1 L (ix3 (0 : Fin 1) p q)
  rw [emb_R1] at h
  exact h

/-- At an index of the first batch row a last store of the second batch row changes nothing. -/
theorem canon_skip_R1 (w1 : Vec F S1x512x1024 .f32) (L : List (View.Piece (Elt F) S2x512x1024 .f32)) (p : Fin 512) (q : Fin 1024) :
    View.canon (Val := Elt F) ((⟨Rect.unit ![1, 0, 0] ![1, 512, 1024] inb_S2x512x1024_S1x512x1024_1_0_0, w1⟩ : View.Piece (Elt F) S2x512x1024 .f32) :: L)
      (ix3 (0 : Fin 2) p q) = View.canon (Val := Elt F) L (ix3 (0 : Fin 2) p q) :=
  View.canon_cons_of_not_mem _ L (not_mem_R1 p q)

/-- So the block of a point, at (0, p, q) and (1, p, q), is the stored first and second batch row at (0, p, q). -/
theorem canon_pieces_apply (x0 : Vec F S2x512x1024 .f32) (x1 : Vec F S2x512x1 .f32) (x2 : Vec F S2x1024 .f32) (x3 x4 : Vec F S1x1024 .f32)
    (P : Vec F S1x512x1024 .f32) (p : Fin 512) (q : Fin 1024) :
    View.canon (pieces x0 x1 x2 x3 x4 P) (ix3 (0 : Fin 2) p q) = row0 x0 x1 x2 x3 x4 P (ix3 (0 : Fin 1) p q)
    ∧ View.canon (pieces x0 x1 x2 x3 x4 P) (ix3 (1 : Fin 2) p q) = row1 x0 x1 x2 x3 x4 P (ix3 (0 : Fin 1) p q) :=
  ⟨(canon_skip_R1 _ _ p q).trans (canon_R0 _ p q), canon_R1 _ _ p q⟩

end Cert.KernelIdeal.Block
end
-- ==== Proof.KerBlocks.lean ====
/-
  The kernel's window blocks read at an index, on the extended reals.

  The grid has 8 points t = 0 … 7.  Point t stages rows 512·t … 512·t + 511 (second axis) of the input [2, 4096, 1024],
  the same rows of the id column [2, 4096, 1], the whole type table [2, 1024], the whole scale and shift rows [1, 1024],
  and writes rows 512·t … 512·t + 511 of the output [2, 4096, 1024].  A block's coordinate on an axis is always
  (block index on that axis) × (block size) + (coordinate inside the block), and the block indices are (0, t, 0) for the
  three row-blocked windows and all zero for the whole-array ones; so entry (b, r, h) of block t is entry
  (b, 512·t + r, h) of the array.

  Three of the staged arrays are written before the region from the arguments: the id column is the ids read as signed
  numbers, laid out as a column (entry (b, s, 0) is the id (b, s)); the scale and shift rows are the vectors of 1024
  entries laid out as one row (entry (0, h) is entry h).

  The output blocks tile the second axis: array row s lies in block s / 512 at row s % 512 of it, and in no other.
-/
import proofs.«124012_g4166118277671_cont_sun_m_48_6_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The block indices, decided over the grid -/

/-- The block index of each window at point t: (0, t, 0) for the row-blocked windows, zero for the whole-array ones. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = t.val ∧ win0_5.index t (2 : Fin 3) = 0) :=
  (by decide +kernel : ∀ t : Fin grid0.N, _)

/-- A grid point is below 8. -/
theorem t_lt (t : Fin cfg0.N) : t.val < 8 := lt_of_lt_of_eq t.isLt (show cfg0.N = 8 from N_0)

/-- Row r of block t is a row of the array. -/
theorem row_lt (t : Fin cfg0.N) (r : Fin 512) : 512 * t.val + r.val < 4096 := by
  have := t_lt t; have := r.isLt; omega

/-! ## Where a block index lands in the array -/

/-- Entry (b, r, h) of block t of the input is entry (b, 512·t + r, h) of the array. -/
theorem emb0_eq (t : Fin cfg0.N) (y : S2x512x1024.Idx) :
    ((cfg0.win 0).blk t).view.emb y
      = ix3 (⟨(y 0).val, (y 0).isLt⟩ : Fin 2) (⟨512 * t.val + (y 1).val, row_lt t (y 1)⟩ : Fin 4096)
          (⟨(y 2).val, (y 2).isLt⟩ : Fin 1024) := by
  obtain ⟨⟨e0, e1, e2⟩, -⟩ := idx_facts t
  funext a; apply Fin.ext
  match a with
  | ⟨0, _⟩ => show win0_0.index t (0 : Fin 3) * 2 + 1 * (y 0).val = (y 0).val; omega
  | ⟨1, _⟩ => show win0_0.index t (1 : Fin 3) * 512 + 1 * (y 1).val = 512 * t.val + (y 1).val; omega
  | ⟨2, _⟩ => show win0_0.index t (2 : Fin 3) * 1024 + 1 * (y 2).val = (y 2).val; omega

/-- Entry (b, r, 0) of block t of the id column is entry (b, 512·t + r, 0) of the column. -/
theorem emb1_eq (t : Fin cfg0.N) (y : S2x512x1.Idx) :
    ((cfg0.win 1).blk t).view.emb y
      = ix3 (⟨(y 0).val, (y 0).isLt⟩ : Fin 2) (⟨512 * t.val + (y 1).val, row_lt t (y 1)⟩ : Fin 4096)
          (⟨(y 2).val, (y 2).isLt⟩ : Fin 1) := by
  obtain ⟨-, ⟨e0, e1, e2⟩, -⟩ := idx_facts t
  funext a; apply Fin.ext
  match a with
  | ⟨0, _⟩ => show win0_1.index t (0 : Fin 3) * 2 + 1 * (y 0).val = (y 0).val; omega
  | ⟨1, _⟩ => show win0_1.index t (1 : Fin 3) * 512 + 1 * (y 1).val = 512 * t.val + (y 1).val; omega
  | ⟨2, _⟩ => show win0_1.index t (2 : Fin 3) * 1 + 1 * (y 2).val = (y 2).val; omega

/-- The type table is staged whole. -/
theorem emb2_eq (t : Fin cfg0.N) (y : S2x1024.Idx) :
    ((cfg0.win 2).blk t).view.emb y = ix2 (⟨(y 0).val, (y 0).isLt⟩ : Fin 2) (⟨(y 1).val, (y 1).isLt⟩ : Fin 1024) := by
  obtain ⟨-, -, ⟨e0, e1⟩, -⟩ := idx_facts t
  funext a; apply Fin.ext
  match a with
  | ⟨0, _⟩ => show win0_2.index t (0 : Fin 2) * 2 + 1 * (y 0).val = (y 0).val; omega
  | ⟨1, _⟩ => show win0_2.index t (1 : Fin 2) * 1024 + 1 * (y 1).val = (y 1).val; omega

/-- The scale row is staged whole. -/
theorem emb3_eq (t : Fin cfg0.N) (y : S1x1024.Idx) :
    ((cfg0.win 3).blk t).view.emb y = ix2 (⟨(y 0).val, (y 0).isLt⟩ : Fin 1) (⟨(y 1).val, (y 1).isLt⟩ : Fin 1024) := by
  obtain ⟨-, -, -, ⟨e0, e1⟩, -⟩ := idx_facts t
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The shift row is staged whole. -/
theorem emb4_eq (t : Fin cfg0.N) (y : S1x1024.Idx) :
    ((cfg0.win 4).blk t).view.emb y = ix2 (⟨(y 0).val, (y 0).isLt⟩ : Fin 1) (⟨(y 1).val, (y 1).isLt⟩ : Fin 1024) := by
  obtain ⟨-, -, -, -, ⟨e0, e1⟩, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- Entry (b, r, h) of block t of the output is entry (b, 512·t + r, h) of the array. -/
theorem out_emb (t : Fin cfg0.N) (y : S2x512x1024.Idx) :
    ((cfg0.win 5).blk t).view.emb y
      = ix3 (⟨(y 0).val, (y 0).isLt⟩ : Fin 2) (⟨512 * t.val + (y 1).val, row_lt t (y 1)⟩ : Fin 4096)
          (⟨(y 2).val, (y 2).isLt⟩ : Fin 1024) := by
  obtain ⟨-, -, -, -, -, ⟨e0, e1, e2⟩⟩ := idx_facts t
  funext a; apply Fin.ext
  match a with
  | ⟨0, _⟩ => show win0_5.index t (0 : Fin 3) * 2 + 1 * (y 0).val = (y 0).val; omega
  | ⟨1, _⟩ => show win0_5.index t (1 : Fin 3) * 512 + 1 * (y 1).val = 512 * t.val + (y 1).val; omega
  | ⟨2, _⟩ => show win0_5.index t (2 : Fin 3) * 1024 + 1 * (y 2).val = (y 2).val; omega

/-! ## The arrays written before the region -/

/-- The id column as the region finds it: the ids read as signed numbers, laid out as a column. -/
theorem V_ids (c : Dev nD) : (V m c main_v1 : S2x4096x1.Idx → EReal)
    = broadcastInDim S2x4096x1 ![0, 1] bcast_S2x4096_S2x4096x1_0_1
        (sitofp (F := Ideal) (s := S2x4096) (w := 32) .f32 (m ((c : Thread nD τ).loc main_arg1))) := by
  dsimp only [Gen.V, Gen.hostOps0]
  after_results

/-- The scale row as the region finds it: the vector of 1024 entries laid out as one row. -/
theorem V_gamma (c : Dev nD) : (V m c main_v2 : S1x1024.Idx → EReal)
    = shapeCast S1x1024 (m ((c : Thread nD τ).loc main_arg4)) shapeCasts_S1024_S1x1024 := by
  dsimp only [Gen.V, Gen.hostOps0]
  after_results
  rfl

/-- The shift row as the region finds it: the vector of 1024 entries laid out as one row. -/
theorem V_beta (c : Dev nD) : (V m c main_v3 : S1x1024.Idx → EReal)
    = shapeCast S1x1024 (m ((c : Thread nD τ).loc main_arg5)) shapeCasts_S1024_S1x1024 := by
  dsimp only [Gen.V, Gen.hostOps0]
  after_results
  rfl

/-- Entry (u, h) of a vector of 1024 entries laid out as one row is entry h of the vector. -/
theorem row_apply (x : S1024.Idx → EReal) (u : Fin 1) (h : Fin 1024) :
    shapeCast S1x1024 x shapeCasts_S1024_S1x1024 (ix2 u h) = x (ix1 h) :=
  shapeCast_apply x shapeCasts_S1024_S1x1024 _ _ (by
    have hu : u.val = 0 := by omega
    rw [Shape.rowMajor_val_one, Shape.rowMajor_val_two]
    show h.val = u.val * 1024 + h.val
    omega)

/-! ## The input blocks at an index -/

/-- Block t of the input. -/
theorem blk0_apply (c : Dev nD) (t : Fin cfg0.N) (y : S2x512x1024.Idx) :
    iblk m c 0 t y = m ((c : Thread nD τ).loc main_arg0)
      (ix3 (⟨(y 0).val, (y 0).isLt⟩ : Fin 2) (⟨512 * t.val + (y 1).val, row_lt t (y 1)⟩ : Fin 4096)
        (⟨(y 2).val, (y 2).isLt⟩ : Fin 1024)) := by
  show V m c main_arg0 (((cfg0.win 0).blk t).view.emb y) = _
  rw [V_main_arg0, emb0_eq]

/-- Block t of the id column: the ids of rows 512·t … read as signed numbers. -/
theorem blk1_apply (c : Dev nD) (t : Fin cfg0.N) (y : S2x512x1.Idx) :
    iblk m c 1 t y = (((m ((c : Thread nD τ).loc main_arg1)
      (ix2 (⟨(y 0).val, (y 0).isLt⟩ : Fin 2) (⟨512 * t.val + (y 1).val, row_lt t (y 1)⟩ : Fin 4096))).toInt : ℝ) : EReal) := by
  show (V m c main_v1 : S2x4096x1.Idx → EReal) (((cfg0.win 1).blk t).view.emb y) = _
  rw [V_ids, emb1_eq]
  refine (broadcastInDim_apply _ _ _ _
    (ix2 (⟨(y 0).val, (y 0).isLt⟩ : Fin 2) (⟨512 * t.val + (y 1).val, row_lt t (y 1)⟩ : Fin 4096)) fun a => ?_).trans rfl
  match a with
  | ⟨0, _⟩ => rfl
  | ⟨1, _⟩ => rfl

/-- The block of the type table: the table. -/
theorem blk2_apply (c : Dev nD) (t : Fin cfg0.N) (y : S2x1024.Idx) :
    iblk m c 2 t y = m ((c : Thread nD τ).loc main_arg3)
      (ix2 (⟨(y 0).val, (y 0).isLt⟩ : Fin 2) (⟨(y 1).val, (y 1).isLt⟩ : Fin 1024)) := by
  show V m c main_arg3 (((cfg0.win 2).blk t).view.emb y) = _
  rw [V_main_arg3, emb2_eq]

/-- The block of the scale row: the scale vector. -/
theorem blk3_apply (c : Dev nD) (t : Fin cfg0.N) (y : S1x1024.Idx) :
    iblk m c 3 t y = m ((c : Thread nD τ).loc main_arg4) (ix1 (⟨(y 1).val, (y 1).isLt⟩ : Fin 1024)) := by
  show (V m c main_v2 : S1x1024.Idx → EReal) (((cfg0.win 3).blk t).view.emb y) = _
  rw [V_gamma, emb3_eq]
  exact row_apply _ _ _

/-- The block of the shift row: the shift vector. -/
theorem blk4_apply (c : Dev nD) (t : Fin cfg0.N) (y : S1x1024.Idx) :
    iblk m c 4 t y = m ((c : Thread nD τ).loc main_arg5) (ix1 (⟨(y 1).val, (y 1).isLt⟩ : Fin 1024)) := by
  show (V m c main_v3 : S1x1024.Idx → EReal) (((cfg0.win 4).blk t).view.emb y) = _
  rw [V_beta, emb4_eq]
  exact row_apply _ _ _

/-! ## The output blocks tile the array -/

/-- An index of the output lies in block t exactly when its row is one of rows 512·t … 512·t + 511. -/
theorem mem_blk5 (t : Fin cfg0.N) (i : S2x4096x1024.Idx) :
    i ∈ ((cfg0.win 5).blk t).view.set ↔ (i 1).val / 512 = t.val := by
  show i ∈ ((View.whole main_v4).slice (win0_5.rect t)).set ↔ _
  rw [View.set_slice_whole, Rect.mem_set_unit]
  obtain ⟨-, -, -, -, -, ⟨e0, e1, e2⟩⟩ := idx_facts t
  have h0 : (i 0).val < 2 := (i 0).isLt
  have h1 : (i 1).val < 4096 := (i 1).isLt
  have h2 : (i 2).val < 1024 := (i 2).isLt
  refine ⟨fun h => ?_, fun h a => ?_⟩
  · have b1 : win0_5.index t (1 : Fin 3) * 512 ≤ (i 1).val ∧ (i 1).val < win0_5.index t (1 : Fin 3) * 512 + 512 := h 1
    omega
  · match a with
    | ⟨0, _⟩ => show win0_5.index t (0 : Fin 3) * 2 ≤ (i 0).val ∧ (i 0).val < win0_5.index t (0 : Fin 3) * 2 + 2; omega
    | ⟨1, _⟩ => show win0_5.index t (1 : Fin 3) * 512 ≤ (i 1).val ∧ (i 1).val < win0_5.index t (1 : Fin 3) * 512 + 512; omega
    | ⟨2, _⟩ => show win0_5.index t (2 : Fin 3) * 1024 ≤ (i 2).val ∧ (i 2).val < win0_5.index t (2 : Fin 3) * 1024 + 1024; omega

/-- The grid point whose block holds array row s. -/
def pointOf (s : Fin 4096) : Fin cfg0.N := ⟨s.val / 512, lt_of_lt_of_eq (by have := s.isLt; omega) N_0.symm⟩

theorem pointOf_val (s : Fin 4096) : (pointOf s).val = s.val / 512 := rfl

/-- Every index of the output lies in the block of a point that writes its block back. -/
theorem cover5 (i : S2x4096x1024.Idx) :
    ∃ t : Fin cfg0.N, (cfg0.win 5).flush t = true ∧ i ∈ ((cfg0.win 5).blk t).view.set :=
  ⟨pointOf (i 1), flush0_5 _, by rw [mem_blk5]; rfl⟩

/-- Array entry (b, s, h) is entry (b, s % 512, h) of block s / 512. -/
theorem out_emb_of (b : Fin 2) (s : Fin 4096) (h : Fin 1024) :
    ((cfg0.win 5).blk (pointOf s)).view.emb
        (ix3 b (⟨s.val % 512, Nat.mod_lt _ (by decide)⟩ : Fin 512) h : S2x512x1024.Idx) = ix3 b s h := by
  rw [out_emb]
  funext a; apply Fin.ext
  match a with
  | ⟨0, _⟩ => rfl
  | ⟨1, _⟩ => show 512 * (s.val / 512) + s.val % 512 = s.val; omega
  | ⟨2, _⟩ => rfl

end Cert.KernelIdeal.Blocks

end
-- ==== Proof.RowSpec.lean ====
/-
  The row-level specification both programs are read against.

  Each output row (b, s) is the normalisation of the row e = x(b, s, ·) + pos(s + 1, ·) + type-row(ids(b, s), ·) of 1024
  extended reals: with μ the mean of the row and v the mean of the squares of the centred row, entry h is
  (e h − μ) / √(v + ε) · γ h + β h.  Two spellings of it occur:
  * `refRow`: sums started from the zero word, the quotient by the root;
  * `kerRow`: bare sums, the product with the reciprocal root;
  and two spellings of an entry of e:
  * `refEmb`: the type row picked by the id (row 0 for the id 0, row 1 otherwise);
  * `kerEmb`: row 0 plus the id, read as a number, times the difference of the two rows.
  The words: 0x44800000 is 1024, 0x2B8CBCCC is the single-precision number nearest 1e-12, 0x00000000 is zero.
-/
import Idealize.ShloMosaic.PureOps.Ideal

noncomputable section

namespace Cert.RowSpec

open Idealize.ShloMosaic

/-- The divisor 1024, the epsilon, and the zero the reference's sums start from, as the programs write them. -/
abbrev W : EReal := Ideal.ofBits .f32 0x44800000#32
abbrev E : EReal := Ideal.ofBits .f32 0x2B8CBCCC#32
abbrev Z : EReal := Ideal.ofBits .f32 0x00000000#32

/-- The mean of a row, the sum started from the zero word. -/
def meanZ (e : Fin 1024 → EReal) : EReal := Ideal.div (Z + ∑ k, e k) W

/-- The mean of a row, the bare sum. -/
def mean (e : Fin 1024 → EReal) : EReal := Ideal.div (∑ k, e k) W

/-- The normalised row in the reference's spelling. -/
def refRow (e : Fin 1024 → EReal) (g b : EReal) (h : Fin 1024) : EReal :=
  Ideal.div (e h - meanZ e) (Ideal.sqrt (meanZ (fun k => (e k - meanZ e) * (e k - meanZ e)) + E)) * g + b

/-- The normalised row in the kernel's spelling. -/
def kerRow (e : Fin 1024 → EReal) (g b : EReal) (h : Fin 1024) : EReal :=
  (e h - mean e) * Ideal.rsqrt (mean (fun k => (e k - mean e) * (e k - mean e)) + E) * g + b

/-- An entry of the row that is normalised, the type row picked by the id. -/
def refEmb (x p t0 t1 : EReal) (w : BitVec 32) : EReal := x + p + (if w = 0#32 then t0 else t1)

/-- The same entry as the kernel forms it: row 0 plus id · (row 1 − row 0), the id read as a signed number. -/
def kerEmb (x p t0 t1 : EReal) (w : BitVec 32) : EReal := x + p + t0 + ((w.toInt : ℝ) : EReal) * (t1 - t0)

/-- The position row read for sequence position s: row s + 1 of the table. -/
def posRow (s : Fin 4096) : Fin 8192 := ⟨s.val + 1, by have := s.isLt; omega⟩

end Cert.RowSpec

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.KerPay.lean ====
/-
  The body's arithmetic read at an index, on the extended reals.

  The body works on one block of 512 rows of 1024 entries for each of the two batch rows. With pos the position rows
  [512, 1024], t0 and t1 the two type rows [1, 1024] and d = t1 − t0, the array that is normalised is
  e = ((x + pos) + t0) + id · d, the ids a column [512, 1] broadcast along the row. Each row of e is then normalised:
  μ = (∑ e) / 1024, c = e − μ, v = (∑ c · c) / 1024, and the stored entry is ((c · rsqrt (v + ε)) · γ) + β, with γ and β rows
  [1, 1024] broadcast over the 512 rows. The sums are taken along the second axis with the axis kept: the vector of row
  sums is laid as a column [512, 1], divided there, and broadcast back to [512, 1024].

  Here every such value is read at an index written by coordinates. The layout steps (a leading unit axis dropped or
  added, a row or a column broadcast, a row sum) each read at the evident index; the arithmetic between them is pointwise.
  The normalisation is proved once, for any array e and any vector holding its row sums (`norm_apply`), and used for both
  batch rows; the result is the row specification `Cert.RowSpec.kerRow`. The words 0x44800000 (1024) and 0x2B8CBCCC (ε)
  are never evaluated.
-/
import proofs.«124012_g4166118277671_cont_sun_m_48_6_alg».proof.Proof.Gen.KernelIdeal.Skeleton
import proofs.«124012_g4166118277671_cont_sun_m_48_6_alg».proof.Proof.RowSpec
import proofs.«124012_g4166118277671_cont_sun_m_48_6_alg».proof.Proof.LibColumnLayout

noncomputable section

namespace Cert.KernelIdeal.Pay

open Idealize.ShloMosaic Idealize.ShloMosaic.ValueIdx Cert.KernelIdeal Cert.KernelIdeal.Gen Cert.LibColumnLayout

theorem pay2_apply (v17 : Vec Ideal S1x512x1024 .f32) (p : Fin 512) (k : Fin 1024) :
    k0_pay2 v17 (ix2 p k) = v17 (ix3 (0 : Fin 1) p k) := by
  unfold k0_pay2
  exact shapeCast_1ab_ab_apply v17 _ p k

theorem pay3_apply (v19 v20 : Vec Ideal S1x1024 .f32) (k : Fin 1024) :
    k0_pay3 v19 v20 (ix2 (0 : Fin 1) k) = v20 (ix2 0 k) - v19 (ix2 0 k) := rfl

theorem pay4_eq (v22 : Vec Ideal S1x1024 .f32) : k0_pay4 v22 = v22 := by
  unfold k0_pay4
  exact shapeCast_self v22 _

theorem pay5_eq (v24 : Vec Ideal S1x1024 .f32) : k0_pay5 v24 = v24 := by
  unfold k0_pay5
  exact shapeCast_self v24 _

theorem pay6_apply (v17 : Vec Ideal S1x512x1024 .f32) (v19 : Vec Ideal S1x1024 .f32) (v26 : Vec Ideal S1x512x1024 .f32)
    (p : Fin 512) (k : Fin 1024) :
    k0_pay6 v17 v19 v26 (ix2 p k) = v26 (ix3 (0 : Fin 1) p k) + v17 (ix3 (0 : Fin 1) p k) + v19 (ix2 (0 : Fin 1) k) := by
  unfold k0_pay6
  show shapeCast S512x1024 v26 _ (ix2 p k) + k0_pay2 v17 (ix2 p k) + broadcastTo S512x1024 v19 _ (ix2 p k) = _
  rw [pay2_apply, shapeCast_1ab_ab_apply, broadcastTo_1b_ab_apply]

/-- The ids column, a [1, 512, 1] array laid as [512, 1] and broadcast along the row: at (p, k) it is the id of row p. -/
theorem idCol_apply (v : Vec Ideal S1x512x1 .f32) (h1 : S1x512x1.ShapeCasts S512x1) (h2 : S512x1.Broadcasts S512x1024)
    (p : Fin 512) (k : Fin 1024) :
    broadcastTo S512x1024 (shapeCast S512x1 v h1) h2 (ix2 p k) = v (ix3 (0 : Fin 1) p (0 : Fin 1)) :=
  (broadcastTo_a1_ab_apply _ h2 p k).trans (shapeCast_1ab_ab_apply v h1 p (0 : Fin 1))

theorem pay8_apply (v18 : FVec Ideal S512x1024 .f32) (v19 : Vec Ideal S1x1024 .f32) (v21 : FVec Ideal S1x1024 .f32)
    (v60 : Vec Ideal S1x512x1024 .f32) (v65 : Vec Ideal S1x512x1 .f32) (p : Fin 512) (k : Fin 1024) :
    k0_pay8 v18 v19 v21 v60 v65 (ix2 p k)
      = v60 (ix3 (0 : Fin 1) p k) + v18 (ix2 p k) + v19 (ix2 (0 : Fin 1) k)
        + v65 (ix3 (0 : Fin 1) p (0 : Fin 1)) * v21 (ix2 (0 : Fin 1) k) := by
  unfold k0_pay8
  show shapeCast S512x1024 v60 _ (ix2 p k) + v18 (ix2 p k) + broadcastTo S512x1024 v19 _ (ix2 p k)
      + broadcastTo S512x1024 (shapeCast S512x1 v65 _) _ (ix2 p k) * broadcastTo S512x1024 v21 _ (ix2 p k) = _
  rw [idCol_apply, shapeCast_1ab_ab_apply, broadcastTo_1b_ab_apply, broadcastTo_1b_ab_apply]

/-! ## The normalisation of the rows of an array, given its row sums -/

/-- The row sums of a [512, 1024] array, as the body takes them. -/
def rowSum (e : FVec Ideal S512x1024 .f32) : FVec Ideal S512 .f32 :=
  multiReduction (F := Ideal) .add [1] S512 e 0x00000000#32 reduces_S512x1024_S512 (.inl rfl) rfl

theorem rowSum_apply (e : FVec Ideal S512x1024 .f32) (p : Fin 512) : rowSum e (ix1 p) = ∑ k : Fin 1024, e (ix2 p k) :=
  multiReduction_add_rows_apply e _ _ _ _ p

/-- Row sums laid as a column, divided by the word 1024, broadcast back along the row. -/
def colMean (s : FVec Ideal S512 .f32) : FVec Ideal S512x1024 .f32 :=
  broadcastTo S512x1024
    (divf (shapeCast S512x1 s shapeCasts_S512_S512x1) (broadcast S512x1 (Scalar.ofBits (F := Ideal) .f32 0x44800000#32)))
    broadcasts_S512x1_S512x1024

theorem colMean_apply (s : FVec Ideal S512 .f32) (p : Fin 512) (k : Fin 1024) :
    colMean s (ix2 p k) = Ideal.div (s (ix1 p)) Cert.RowSpec.W :=
  (broadcastTo_a1_ab_apply _ _ p k).trans
    (congrArg (fun t => Ideal.div t Cert.RowSpec.W) (shapeCast_a_a1_apply s _ p (0 : Fin 1)))

/-- Row sums laid as a column, divided by 1024, epsilon added, the reciprocal root taken, broadcast back along the row. -/
def colRsqrt (s : FVec Ideal S512 .f32) : FVec Ideal S512x1024 .f32 :=
  broadcastTo S512x1024
    (rsqrt (addf (divf (shapeCast S512x1 s shapeCasts_S512_S512x1) (broadcast S512x1 (Scalar.ofBits (F := Ideal) .f32 0x44800000#32)))
      (broadcast S512x1 (Scalar.ofBits (F := Ideal) .f32 0x2B8CBCCC#32))))
    broadcasts_S512x1_S512x1024

theorem colRsqrt_apply (s : FVec Ideal S512 .f32) (p : Fin 512) (k : Fin 1024) :
    colRsqrt s (ix2 p k) = Ideal.rsqrt (Ideal.div (s (ix1 p)) Cert.RowSpec.W + Cert.RowSpec.E) :=
  (broadcastTo_a1_ab_apply _ _ p k).trans
    (congrArg (fun t => Ideal.rsqrt (Ideal.div t Cert.RowSpec.W + Cert.RowSpec.E)) (shapeCast_a_a1_apply s _ p (0 : Fin 1)))

/-- The normalising term, as a function of the array `e` and the vector `s` it is given as row sums, in the parts just named
    (the body spells it out once per batch row; the generated name is the second copy's). -/
theorem pay1_parts (v23 v25 : FVec Ideal S1x1024 .f32) (e : FVec Ideal S512x1024 .f32) (s : FVec Ideal S512 .f32) :
    k0_pay1 v23 v25 e s
      = shapeCast S1x512x1024
          (addf (mulf (mulf (subf e (colMean s)) (colRsqrt (rowSum (mulf (subf e (colMean s)) (subf e (colMean s))))))
            (broadcastTo S512x1024 v23 broadcasts_S1x1024_S512x1024)) (broadcastTo S512x1024 v25 broadcasts_S1x1024_S512x1024))
          shapeCasts_S512x1024_S1x512x1024 := rfl

/-- The normalised array at (0, p, q), for ANY array e and any vector s that holds e's row sums: row p of e, centred by its
    mean, times the reciprocal root of (the mean of the squares of the centred row, plus epsilon), times gamma, plus beta. -/
theorem norm_apply (v23 v25 : FVec Ideal S1x1024 .f32) (e : FVec Ideal S512x1024 .f32) (s : FVec Ideal S512 .f32)
    (hs : ∀ p : Fin 512, s (ix1 p) = ∑ k : Fin 1024, e (ix2 p k)) (p : Fin 512) (q : Fin 1024) :
    k0_pay1 v23 v25 e s (ix3 (0 : Fin 1) p q)
      = Cert.RowSpec.kerRow (fun k => e (ix2 p k)) (v23 (ix2 (0 : Fin 1) q)) (v25 (ix2 (0 : Fin 1) q)) q := by
  have hc : ∀ k : Fin 1024, subf e (colMean s) (ix2 p k) = e (ix2 p k) - Cert.RowSpec.mean (fun k => e (ix2 p k)) := fun k => by
    show e (ix2 p k) - colMean s (ix2 p k) = _
    rw [colMean_apply, hs]
    rfl
  have hsq : ∀ k : Fin 1024, mulf (subf e (colMean s)) (subf e (colMean s)) (ix2 p k)
      = (e (ix2 p k) - Cert.RowSpec.mean (fun k => e (ix2 p k))) * (e (ix2 p k) - Cert.RowSpec.mean (fun k => e (ix2 p k))) := fun k => by
    show subf e (colMean s) (ix2 p k) * subf e (colMean s) (ix2 p k) = _
    rw [hc]
  refine (congrFun (pay1_parts v23 v25 e s) _).trans ?_
  refine (shapeCast_ab_1ab_apply _ _ (0 : Fin 1) p q).trans ?_
  show subf e (colMean s) (ix2 p q) * colRsqrt (rowSum (mulf (subf e (colMean s)) (subf e (colMean s)))) (ix2 p q)
      * broadcastTo S512x1024 v23 _ (ix2 p q) + broadcastTo S512x1024 v25 _ (ix2 p q) = _
  rw [hc, colRsqrt_apply, rowSum_apply, broadcastTo_1b_ab_apply, broadcastTo_1b_ab_apply, Finset.sum_congr rfl fun k _ => hsq k]
  rfl

/-! ## The two batch rows -/

/-- The first batch row's array before normalisation: v30 plus the ids column times the difference row. -/
def emb0 (v21 : FVec Ideal S1x1024 .f32) (v30 : FVec Ideal S512x1024 .f32) (v31 : Vec Ideal S1x512x1 .f32) : FVec Ideal S512x1024 .f32 :=
  addf v30 (mulf (broadcastTo S512x1024 (shapeCast S512x1 v31 shapeCasts_S1x512x1_S512x1) broadcasts_S512x1_S512x1024)
    (broadcastTo S512x1024 v21 broadcasts_S1x1024_S512x1024))

theorem emb0_apply (v21 : FVec Ideal S1x1024 .f32) (v30 : FVec Ideal S512x1024 .f32) (v31 : Vec Ideal S1x512x1 .f32)
    (p : Fin 512) (k : Fin 1024) :
    emb0 v21 v30 v31 (ix2 p k) = v30 (ix2 p k) + v31 (ix3 (0 : Fin 1) p (0 : Fin 1)) * v21 (ix2 (0 : Fin 1) k) := by
  show v30 (ix2 p k) + broadcastTo S512x1024 (shapeCast S512x1 v31 _) _ (ix2 p k) * broadcastTo S512x1024 v21 _ (ix2 p k) = _
  rw [idCol_apply, broadcastTo_1b_ab_apply]

/-- The first batch row's stored value is the same normalising term, at `emb0` and its row sums. -/
theorem pay7_eq_norm (v21 v23 v25 : FVec Ideal S1x1024 .f32) (v30 : FVec Ideal S512x1024 .f32) (v31 : Vec Ideal S1x512x1 .f32) :
    k0_pay7 v21 v23 v25 v30 v31 = k0_pay1 v23 v25 (emb0 v21 v30 v31) (rowSum (emb0 v21 v30 v31)) := rfl

theorem pay7_apply (v21 v23 v25 : FVec Ideal S1x1024 .f32) (v30 : FVec Ideal S512x1024 .f32) (v31 : Vec Ideal S1x512x1 .f32)
    (p : Fin 512) (q : Fin 1024) :
    k0_pay7 v21 v23 v25 v30 v31 (ix3 (0 : Fin 1) p q)
      = Cert.RowSpec.kerRow (fun k => v30 (ix2 p k) + v31 (ix3 (0 : Fin 1) p (0 : Fin 1)) * v21 (ix2 (0 : Fin 1) k))
          (v23 (ix2 (0 : Fin 1) q)) (v25 (ix2 (0 : Fin 1) q)) q := by
  refine (congrFun (pay7_eq_norm v21 v23 v25 v30 v31) _).trans ?_
  refine (norm_apply v23 v25 (emb0 v21 v30 v31) _ (rowSum_apply _) p q).trans ?_
  exact congrArg (fun f => Cert.RowSpec.kerRow f (v23 (ix2 (0 : Fin 1) q)) (v25 (ix2 (0 : Fin 1) q)) q)
    (funext fun k => emb0_apply v21 v30 v31 p k)

theorem pay9_apply (v18 : FVec Ideal S512x1024 .f32) (v19 : Vec Ideal S1x1024 .f32) (v21 : FVec Ideal S1x1024 .f32)
    (v60 : Vec Ideal S1x512x1024 .f32) (v65 : Vec Ideal S1x512x1 .f32) (p : Fin 512) :
    k0_pay9 v18 v19 v21 v60 v65 (ix1 p) = ∑ k : Fin 1024, k0_pay8 v18 v19 v21 v60 v65 (ix2 p k) :=
  rowSum_apply (k0_pay8 v18 v19 v21 v60 v65) p

theorem pay1_apply (v23 v25 : FVec Ideal S1x1024 .f32) (v18 : FVec Ideal S512x1024 .f32) (v19 : Vec Ideal S1x1024 .f32)
    (v21 : FVec Ideal S1x1024 .f32) (v60 : Vec Ideal S1x512x1024 .f32) (v65 : Vec Ideal S1x512x1 .f32) (p : Fin 512) (q : Fin 1024) :
    k0_pay1 v23 v25 (k0_pay8 v18 v19 v21 v60 v65) (k0_pay9 v18 v19 v21 v60 v65) (ix3 (0 : Fin 1) p q)
      = Cert.RowSpec.kerRow (fun k => k0_pay8 v18 v19 v21 v60 v65 (ix2 p k)) (v23 (ix2 (0 : Fin 1) q)) (v25 (ix2 (0 : Fin 1) q)) q :=
  norm_apply v23 v25 _ _ (pay9_apply v18 v19 v21 v60 v65) p q

end Cert.KernelIdeal.Pay

end
-- ==== Proof.OutSpec.lean ====
/-
  The result array both programs are shown to hold, as one function of the six argument arrays: entry (b, s, h) is entry
  h of the normalised row (kernel's spelling, `RowSpec.kerRow`) of the row whose entry k is
  x(b, s, k) + pos(s + 1, k) + type row picked arithmetically by ids(b, s) (`RowSpec.kerEmb`), scaled by gamma(h) and
  shifted by beta(h).
-/
import proofs.«124012_g4166118277671_cont_sun_m_48_6_alg».proof.Proof.RowSpec
import Idealize.ShloMosaic.Lib.ValueIdx

noncomputable section

namespace Cert.RowSpec

open Idealize.ShloMosaic Idealize.ShloMosaic.ValueIdx

/-- The row (b, s) that is normalised, in the kernel's spelling. -/
def kerE (x : (⟨3, ![2, 4096, 1024]⟩ : Shape).Idx → EReal) (ids : (⟨2, ![2, 4096]⟩ : Shape).Idx → BitVec 32)
    (pos : (⟨2, ![8192, 1024]⟩ : Shape).Idx → EReal) (tt : (⟨2, ![2, 1024]⟩ : Shape).Idx → EReal)
    (b : Fin 2) (s : Fin 4096) : Fin 1024 → EReal :=
  fun k => kerEmb (x (ix3 b s k)) (pos (ix2 (posRow s) k)) (tt (ix2 (0 : Fin 2) k)) (tt (ix2 (1 : Fin 2) k)) (ids (ix2 b s))

/-- The result at coordinates (b, s, h). -/
def kerAt (x : (⟨3, ![2, 4096, 1024]⟩ : Shape).Idx → EReal) (ids : (⟨2, ![2, 4096]⟩ : Shape).Idx → BitVec 32)
    (pos : (⟨2, ![8192, 1024]⟩ : Shape).Idx → EReal) (tt : (⟨2, ![2, 1024]⟩ : Shape).Idx → EReal)
    (gamma beta : (⟨1, ![1024]⟩ : Shape).Idx → EReal) (b : Fin 2) (s : Fin 4096) (h : Fin 1024) : EReal :=
  kerRow (kerE x ids pos tt b s) (gamma (ix1 h)) (beta (ix1 h)) h

/-- The result array. -/
def kerOut (x : (⟨3, ![2, 4096, 1024]⟩ : Shape).Idx → EReal) (ids : (⟨2, ![2, 4096]⟩ : Shape).Idx → BitVec 32)
    (pos : (⟨2, ![8192, 1024]⟩ : Shape).Idx → EReal) (tt : (⟨2, ![2, 1024]⟩ : Shape).Idx → EReal)
    (gamma beta : (⟨1, ![1024]⟩ : Shape).Idx → EReal) : (⟨3, ![2, 4096, 1024]⟩ : Shape).Idx → EReal :=
  fun i => kerAt x ids pos tt gamma beta (i 0) (i 1) (i 2)

theorem kerOut_apply (x : (⟨3, ![2, 4096, 1024]⟩ : Shape).Idx → EReal) (ids : (⟨2, ![2, 4096]⟩ : Shape).Idx → BitVec 32)
    (pos : (⟨2, ![8192, 1024]⟩ : Shape).Idx → EReal) (tt : (⟨2, ![2, 1024]⟩ : Shape).Idx → EReal)
    (gamma beta : (⟨1, ![1024]⟩ : Shape).Idx → EReal) (b : Fin 2) (s : Fin 4096) (h : Fin 1024) :
    kerOut x ids pos tt gamma beta (ix3 b s h) = kerAt x ids pos tt gamma beta b s h := rfl

end Cert.RowSpec

end
-- ==== Proof.KerRows.lean ====
/-
  The two batch rows the body stores, read at an index, on the extended reals.

  Each stored row is the body's arithmetic applied to loads of the staged blocks: x's block [2, 512, 1024], the id
  column's block [2, 512, 1], the type table [2, 1024], gamma and beta [1, 1024], and the 512 position rows. A load
  through a rectangle one row thick reads entry (0, …) of what it loads from entry (b, …) of the block, b the rectangle's
  offset on the first axis. With the arithmetic already read at an index, entry (0, p, q) of stored batch row b is the row
  specification `Cert.RowSpec.kerRow` at the row
      k ↦ x (b, p, k) + pos (0, p, k) + t0 k + id (b, p, 0) · (t1 k − t0 k),
  with gamma and beta at q: the sums in that order, (x + pos) + t0 first, then the id times the difference of the type rows.
-/
import proofs.«124012_g4166118277671_cont_sun_m_48_6_alg».proof.Proof.KerOut
import proofs.«124012_g4166118277671_cont_sun_m_48_6_alg».proof.Proof.KerPay

noncomputable section

namespace Cert.KernelIdeal.Block

open Idealize.ShloMosaic Idealize.ShloMosaic.ValueIdx Cert.KernelIdeal Cert.KernelIdeal.Gen Cert.KernelIdeal.Pay

/-! ## A load through a one-row rectangle, read at an index

  A unit-stride rectangle places its own index y at offset + 1 · y on every axis; so a rectangle one batch row (or one table
  row) thick, at offset b on the first axis and 0 on the others, reads entry (0, …) from entry (b, …). -/

/-- Batch row b of a [2, 512, 1024] block, loaded as [1, 512, 1024]: its entry (0, p, k) is the block's (b, p, k). -/
theorem ld_x0_apply (x : Vec Ideal S2x512x1024 .f32) (o : Nat) (b : Fin 2) (ho : o = b.val)
    (inb : ∀ a, (![o, 0, 0] : Fin 3 → Nat) a + (![1, 512, 1024] : Fin 3 → Nat) a ≤ S2x512x1024.size a) (p : Fin 512) (k : Fin 1024) :
    View.ld x (Rect.unit (s := S2x512x1024) ![o, 0, 0] ![1, 512, 1024] inb) (ix3 (0 : Fin 1) p k) = x (ix3 b p k) := by
  subst ho
  show x _ = x _
  congr 1
  funext a; apply Fin.ext
  refine Fin.cases ?_ (fun i => ?_) a
  · show b.val + 1 * 0 = b.val; omega
  · refine Fin.cases ?_ (fun j => ?_) i
    · show 0 + 1 * p.val = p.val; omega
    · have hj : j = 0 := Subsingleton.elim _ _
      subst hj
      show 0 + 1 * k.val = k.val; omega

/-- Batch row b of the [2, 512, 1] id column's block, loaded as [1, 512, 1]: its entry (0, p, 0) is the block's (b, p, 0). -/
theorem ld_x1_apply (x : Vec Ideal S2x512x1 .f32) (o : Nat) (b : Fin 2) (ho : o = b.val)
    (inb : ∀ a, (![o, 0, 0] : Fin 3 → Nat) a + (![1, 512, 1] : Fin 3 → Nat) a ≤ S2x512x1.size a) (p : Fin 512) :
    View.ld x (Rect.unit (s := S2x512x1) ![o, 0, 0] ![1, 512, 1] inb) (ix3 (0 : Fin 1) p (0 : Fin 1)) = x (ix3 b p (0 : Fin 1)) := by
  subst ho
  show x _ = x _
  congr 1
  funext a; apply Fin.ext
  refine Fin.cases ?_ (fun i => ?_) a
  · show b.val + 1 * 0 = b.val; omega
  · refine Fin.cases ?_ (fun j => ?_) i
    · show 0 + 1 * p.val = p.val; omega
    · have hj : j = 0 := Subsingleton.elim _ _
      subst hj
      show 0 + 1 * 0 = 0; rfl

/-- Row b of the [2, 1024] type table, loaded as [1, 1024]: its entry (0, k) is the table's (b, k). -/
theorem ld_x2_apply (x : Vec Ideal S2x1024 .f32) (o : Nat) (b : Fin 2) (ho : o = b.val)
    (inb : ∀ a, (![o, 0] : Fin 2 → Nat) a + (![1, 1024] : Fin 2 → Nat) a ≤ S2x1024.size a) (k : Fin 1024) :
    View.ld x (Rect.unit (s := S2x1024) ![o, 0] ![1, 1024] inb) (ix2 (0 : Fin 1) k) = x (ix2 b k) := by
  subst ho
  show x _ = x _
  congr 1
  funext a; apply Fin.ext
  refine Fin.cases ?_ (fun i => ?_) a
  · show b.val + 1 * 0 = b.val; omega
  · have hi : i = 0 := Subsingleton.elim _ _
    subst hi
    show 0 + 1 * k.val = k.val; omega

/-- A [1, 1024] row loaded whole: its entry (0, k) is the row's (0, k). -/
theorem ld_row_apply (x : Vec Ideal S1x1024 .f32)
    (inb : ∀ a, (![0, 0] : Fin 2 → Nat) a + (![1, 1024] : Fin 2 → Nat) a ≤ S1x1024.size a) (k : Fin 1024) :
    View.ld x (Rect.unit (s := S1x1024) ![0, 0] ![1, 1024] inb) (ix2 (0 : Fin 1) k) = x (ix2 (0 : Fin 1) k) := by
  show x _ = x _
  congr 1
  funext a; apply Fin.ext
  refine Fin.cases ?_ (fun i => ?_) a
  · show 0 + 1 * 0 = 0; rfl
  · have hi : i = 0 := Subsingleton.elim _ _
    subst hi
    show 0 + 1 * k.val = k.val; omega

/-! ## The two stored batch rows, read at an index -/

section Rows
variable (x0 : Vec Ideal S2x512x1024 .f32) (x1 : Vec Ideal S2x512x1 .f32) (x2 : Vec Ideal S2x1024 .f32) (x3 x4 : Vec Ideal S1x1024 .f32)
  (P : Vec Ideal S1x512x1024 .f32)

/-- Gamma and beta as the body reads them: the loaded row, cast to its own shape. -/
theorem gamma_apply (inb : ∀ a, (![0, 0] : Fin 2 → Nat) a + (![1, 1024] : Fin 2 → Nat) a ≤ S1x1024.size a) (q : Fin 1024) :
    k0_pay4 (View.ld x3 (Rect.unit (s := S1x1024) ![0, 0] ![1, 1024] inb)) (ix2 (0 : Fin 1) q) = x3 (ix2 (0 : Fin 1) q) :=
  (congrFun (pay4_eq _) _).trans (ld_row_apply x3 inb q)

theorem beta_apply (inb : ∀ a, (![0, 0] : Fin 2 → Nat) a + (![1, 1024] : Fin 2 → Nat) a ≤ S1x1024.size a) (q : Fin 1024) :
    k0_pay5 (View.ld x4 (Rect.unit (s := S1x1024) ![0, 0] ![1, 1024] inb)) (ix2 (0 : Fin 1) q) = x4 (ix2 (0 : Fin 1) q) :=
  (congrFun (pay5_eq _) _).trans (ld_row_apply x4 inb q)

/-- The difference of the two type rows as the body forms it, at (0, k). -/
theorem typeDiff_apply (k : Fin 1024) :
    k0_pay3 (View.ld x2 (Rect.unit ![0, 0] ![1, 1024] inb_S2x1024_S1x1024_0_0))
        (View.ld x2 (Rect.unit ![1, 0] ![1, 1024] inb_S2x1024_S1x1024_1_0)) (ix2 (0 : Fin 1) k)
      = x2 (ix2 (1 : Fin 2) k) - x2 (ix2 (0 : Fin 2) k) := by
  refine (pay3_apply _ _ k).trans ?_
  rw [ld_x2_apply x2 1 1 rfl, ld_x2_apply x2 0 0 rfl]

/-- The first batch row's stored entry (0, p, q): the row specification at the row x + pos + t0 + id · (t1 − t0). -/
theorem row0_apply (p : Fin 512) (q : Fin 1024) :
    row0 x0 x1 x2 x3 x4 P (ix3 (0 : Fin 1) p q)
      = Cert.RowSpec.kerRow (fun k => x0 (ix3 (0 : Fin 2) p k) + P (ix3 (0 : Fin 1) p k) + x2 (ix2 (0 : Fin 2) k)
            + x1 (ix3 (0 : Fin 2) p (0 : Fin 1)) * (x2 (ix2 (1 : Fin 2) k) - x2 (ix2 (0 : Fin 2) k)))
          (x3 (ix2 (0 : Fin 1) q)) (x4 (ix2 (0 : Fin 1) q)) q := by
  unfold row0
  refine (pay7_apply _ _ _ _ _ p q).trans ?_
  rw [gamma_apply, beta_apply]
  refine congrArg (fun f => Cert.RowSpec.kerRow f (x3 (ix2 (0 : Fin 1) q)) (x4 (ix2 (0 : Fin 1) q)) q) (funext fun k => ?_)
  rw [pay6_apply, typeDiff_apply, ld_x0_apply x0 0 0 rfl, ld_x2_apply x2 0 0 rfl, ld_x1_apply x1 0 0 rfl]

/-- The second batch row's stored entry (0, p, q). -/
theorem row1_apply (p : Fin 512) (q : Fin 1024) :
    row1 x0 x1 x2 x3 x4 P (ix3 (0 : Fin 1) p q)
      = Cert.RowSpec.kerRow (fun k => x0 (ix3 (1 : Fin 2) p k) + P (ix3 (0 : Fin 1) p k) + x2 (ix2 (0 : Fin 2) k)
            + x1 (ix3 (1 : Fin 2) p (0 : Fin 1)) * (x2 (ix2 (1 : Fin 2) k) - x2 (ix2 (0 : Fin 2) k)))
          (x3 (ix2 (0 : Fin 1) q)) (x4 (ix2 (0 : Fin 1) q)) q := by
  unfold row1
  refine (pay1_apply _ _ _ _ _ _ _ p q).trans ?_
  rw [gamma_apply, beta_apply]
  refine congrArg (fun f => Cert.RowSpec.kerRow f (x3 (ix2 (0 : Fin 1) q)) (x4 (ix2 (0 : Fin 1) q)) q) (funext fun k => ?_)
  rw [pay8_apply, pay2_apply, typeDiff_apply, ld_x0_apply x0 1 1 rfl, ld_x2_apply x2 0 0 rfl, ld_x1_apply x1 1 1 rfl]

end Rows

end Cert.KernelIdeal.Block

end
-- ==== Proof.KerFinal.lean ====
/-
  The kernel's result array.

  At each of the 8 grid points the body leaves, in the [2, 512, 1024] output block, the two stored batch rows of the point's
  input blocks (`outsAt_eq`: the same terms in each of the body's three control cases). Entry (b, p, q) of the block at
  point t is the specification's entry (b, 512 t + p, q) (`block_apply`): x's block holds x(b, 512 t + p, ·), the rows read
  from the two-slot buffer are the table's rows 512 t + p + 1, the id column holds the id (b, 512 t + p) read as a number,
  the type table, gamma and beta are staged whole. So what point t writes back is the specification read through the
  output window's block (`flushed_eq`), the eight blocks cover the array, and the array the run ends with is the
  specification (`final`, `run`).
-/
import proofs.«124012_g4166118277671_cont_sun_m_48_6_alg».proof.Proof.KerOut
import proofs.«124012_g4166118277671_cont_sun_m_48_6_alg».proof.Proof.KerBlocks
import proofs.«124012_g4166118277671_cont_sun_m_48_6_alg».proof.Proof.KerPay
import proofs.«124012_g4166118277671_cont_sun_m_48_6_alg».proof.Proof.OutSpec
import proofs.«124012_g4166118277671_cont_sun_m_48_6_alg».proof.Proof.KerRows

set_option maxRecDepth 16384
noncomputable section
namespace Cert.KernelIdeal.Final
open Cert.KernelIdeal Cert.KernelIdeal.Gen Cert.KernelIdeal.Slot Cert.KernelIdeal.Block Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The result array the kernel is shown to leave: the specification at the launch contents of the six arguments. -/
abbrev out (c : Dev nD) : S2x4096x1024.Idx → EReal :=
  Cert.RowSpec.kerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- At every grid point, whichever control case it falls in, the output block after the body is the two stored batch rows of the
    point's input blocks and of the table rows the point reads. -/
theorem outsAt_eq (c : Dev nD) (t : Fin cfg0.N) :
    outsAt0 m c t.val t.isLt
      = View.canon (pieces (iblk m c 0 t) (iblk m c 1 t) (iblk m c 2 t) (iblk m c 3 t) (iblk m c 4 t) (ringRead c t (V m c main_arg2))) := by
  have hN : t.val < 8 := t_lt t
  by_cases h0 : t.val % 8 = 0
  · by_cases h1 : t.val < 7
    · rw [outsAt0_A m c t h0 h1]; exact out_A c t _ _ _ _ _ _ _ _ _ _ _ _ _ _ _ _ _ _ _ _
    · exfalso; omega
  · by_cases h1 : t.val < 7
    · rw [outsAt0_B m c t h0 h1]; exact out_B c t _ _ _ _ _ _ _ _ _ _ _ _ _ _ _ _ _ _ _ _
    · rw [outsAt0_C m c t h0 h1]; exact out_C c t _ _ _ _ _ _ _ _ _ _ _ _ _ _ _ _ _ _ _ _

/-- The block's entry (b, p, q) at point t is the specification's entry (b, 512 t + p, q): the stored row's entries are x's,
    the table's row 512 t + p + 1, the two type rows and the id of sequence position 512 t + p, and gamma and beta at q. -/
theorem block_apply (c : Dev nD) (t : Fin cfg0.N) (b : Fin 2) (p : Fin 512) (q : Fin 1024) :
    View.canon (pieces (iblk m c 0 t) (iblk m c 1 t) (iblk m c 2 t) (iblk m c 3 t) (iblk m c 4 t) (ringRead c t (V m c main_arg2))) (ix3 b p q)
      = out m c (ix3 b (⟨512 * t.val + p.val, row_lt t p⟩ : Fin 4096) q) := by
  rw [ringRead_eq, V_main_arg2 m c]
  match b with
  | ⟨0, _⟩ =>
    refine ((canon_pieces_apply _ _ _ _ _ _ p q).1.trans (row0_apply _ _ _ _ _ _ p q)).trans ?_
    simp only [blk0_apply m c t, blk1_apply m c t, blk2_apply m c t, blk3_apply m c t, blk4_apply m c t]
    rfl
  | ⟨1, _⟩ =>
    refine ((canon_pieces_apply _ _ _ _ _ _ p q).2.trans (row1_apply _ _ _ _ _ _ p q)).trans ?_
    simp only [blk0_apply m c t, blk1_apply m c t, blk2_apply m c t, blk3_apply m c t, blk4_apply m c t]
    rfl

/-- What point t writes back is the specification read through the output window's block at t. -/
theorem flushed_eq (c : Dev nD) (t : Fin cfg0.N) :
    (dats m 0 c).flushed 5 t = ((cfg0.win 5).blk t).view.read (Elt Ideal) (out m c) := by
  rw [Cert.KernelIdeal.Value.flushed5, outsAt_eq]
  funext y
  obtain ⟨b, p, q, rfl⟩ : ∃ (b : Fin 2) (p : Fin 512) (q : Fin 1024), y = ix3 b p q := ⟨y 0, y 1, y 2, eq_ix3 y⟩
  show (View.canon (pieces (iblk m c 0 t) (iblk m c 1 t) (iblk m c 2 t) (iblk m c 3 t) (iblk m c 4 t) (ringRead c t (V m c main_arg2))) : S2x512x1024.Idx → EReal) (ix3 b p q)
      = out m c (((cfg0.win 5).blk t).view.emb (ix3 b p q : S2x512x1024.Idx))
  rw [out_emb t (ix3 b p q), block_apply m c t b p q]

/-- THE VALUE: the kernel's result array is the specification — the eight blocks written back cover the array. -/
theorem final (c : Dev nD) : (dats m 0 c).arrAt 5 cfg0.N = out m c :=
  (dats m 0 c).arrAt_eq_of_cover 5 (out m c) (fun t _ => flushed_eq m c t) cover5

/-- The kernel's run: it terminates with the result array at the specification and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Final
end
-- ==== Proof.RefTerm.lean ====
/-
  The reference program's result as ONE pure term of its six argument arrays, operation by operation as the
  program lists them, in four named parts:

  * `posIds`   — the position ids: the array [2, 4096] whose entry (b, s) is s + 1;
  * `takePos`  — `take` along axis 0 of the 8192-row table at an index array [2, 4096]: a negative index has 8192 added,
                 the row at the index (clamped into the table) is gathered, and where the index so wrapped lies outside
                 [0, 8191] the whole row is replaced by the not-a-number word;
  * `takeType` — the same for the 2-row table (wrap by 2, range [0, 1]);
  * `rowNorm`  — the normalisation of each row of 1024 entries: the mean is the row sum over 1024, the centred row is
                 squared and averaged, the centred row is divided by the square root of that average plus epsilon,
                 scaled by gamma and shifted by beta.
  `refOut` composes them: the rows normalised are x + pos rows + type rows.
-/
import proofs.«124012_g4166118277671_cont_sun_m_48_6_alg».proof.Proof.Gen.ReferenceIdeal

noncomputable section

namespace Cert.ReferenceIdeal.RefValue

open Cert.ReferenceIdeal Cert.ReferenceIdeal.Gen Idealize.ShloMosaic

variable {F : FTy → Type} [FloatOps F]

/-- The position ids, entry (b, s) = s + 1. -/
def posIds : (⟨S2x4096, .i32⟩ : BufTy).Contents (Elt F) :=
  broadcastInDim S2x4096 ![0, 1] bcast_S1x4096_S2x4096_0_1
    (broadcastInDim S1x4096 ![1] bcast_S4096_S1x4096_1
      (addi (broadcastInDim S4096 ![] bcast_S_S4096 (constantI S_ 32 1#32) : (⟨S4096, .i32⟩ : BufTy).Contents (Elt F))
        (iotaInDim S4096 32 0)))

/-- An index array with its negative entries wrapped by `n`. -/
def wrapIdx (n : BitVec 32) (idx : (⟨S2x4096, .i32⟩ : BufTy).Contents (Elt F)) : (⟨S2x4096, .i32⟩ : BufTy).Contents (Elt F) :=
  select (cmpi .slt idx (broadcastInDim S2x4096 ![] bcast_S_S2x4096 (constantI S_ 32 0#32)))
    (addi idx (broadcastInDim S2x4096 ![] bcast_S_S2x4096 (constantI S_ 32 n))) idx

/-- The wrapped indices as a column of one-entry index vectors. -/
def idxCol (w : (⟨S2x4096, .i32⟩ : BufTy).Contents (Elt F)) : (⟨S2x4096x1, .i32⟩ : BufTy).Contents (Elt F) :=
  broadcastInDim S2x4096x1 ![0, 1] bcast_S2x4096_S2x4096x1_0_1 w

/-- Where the wrapped index lies in [0, hi]: one bit per (b, s). -/
def inRange (hi : BitVec 32) (v5 : (⟨S2x4096x1, .i32⟩ : BufTy).Contents (Elt F)) : (⟨S2x4096, .i1⟩ : BufTy).Contents (Elt F) :=
  Host.reduce IntOp.andi
    (andi (cmpi .sge v5 (broadcastInDim S2x4096x1 ![] bcast_S_S2x4096x1 (constantI S_ 32 0#32)))
      (cmpi .sle v5 (broadcastInDim S2x4096x1 ![0, 1, 2] bcast_S1x1x1_S2x4096x1_0_1_2
        (broadcastInDim S1x1x1 ![2] bcast_S1_S1x1x1_2 (constantI S1 32 hi)))))
    (constantI S_ 1 1#1) reducesTo_S2x4096x1_S2x4096_d2 h_S_

/-- The not-a-number word at every entry. -/
def nanFill : (⟨S2x4096x1024, .f32⟩ : BufTy).Contents (Elt F) :=
  broadcastInDim S2x4096x1024 ![] bcast_S_S2x4096x1024 (constant S_ .f32 0x7FC00000#32)

/-- `take` of the rows of the 8192-row table. -/
def takePos (tbl : (⟨S8192x1024, .f32⟩ : BufTy).Contents (Elt F)) (idx : (⟨S2x4096, .i32⟩ : BufTy).Contents (Elt F)) :
    (⟨S2x4096x1024, .f32⟩ : BufTy).Contents (Elt F) :=
  select (broadcastInDim S2x4096x1024 ![0, 1] bcast_S2x4096_S2x4096x1024_0_1 (inRange 8191#32 (idxCol (wrapIdx 8192#32 idx))))
    (Host.gather gather_S8192x1024_S2x4096x1_S2x4096x1024_2_0_n_n_0_2_11024 tbl (idxCol (wrapIdx 8192#32 idx)))
    nanFill

/-- `take` of the rows of the 2-row table. -/
def takeType (tbl : (⟨S2x1024, .f32⟩ : BufTy).Contents (Elt F)) (idx : (⟨S2x4096, .i32⟩ : BufTy).Contents (Elt F)) :
    (⟨S2x4096x1024, .f32⟩ : BufTy).Contents (Elt F) :=
  select (broadcastInDim S2x4096x1024 ![0, 1] bcast_S2x4096_S2x4096x1024_0_1 (inRange 1#32 (idxCol (wrapIdx 2#32 idx))))
    (Host.gather gather_S2x1024_S2x4096x1_S2x4096x1024_2_0_n_n_0_2_11024 tbl (idxCol (wrapIdx 2#32 idx)))
    nanFill

/-- The mean over the last axis, kept as a column: (init 0 + row sum) / 1024. -/
def meanCol (e : (⟨S2x4096x1024, .f32⟩ : BufTy).Contents (Elt F)) : (⟨S2x4096x1, .f32⟩ : BufTy).Contents (Elt F) :=
  Host.divf
    (broadcastInDim S2x4096x1 ![0, 1] bcast_S2x4096_S2x4096x1_0_1
      (Host.reduceAdd e (constant S_ .f32 0x00000000#32) reducesTo_S2x4096x1024_S2x4096_d2 h_S_))
    (broadcastInDim S2x4096x1 ![] bcast_S_S2x4096x1 (constant S_ .f32 0x44800000#32))

/-- A column spread along the last axis. -/
def spread (v : (⟨S2x4096x1, .f32⟩ : BufTy).Contents (Elt F)) : (⟨S2x4096x1024, .f32⟩ : BufTy).Contents (Elt F) :=
  broadcastInDim S2x4096x1024 ![0, 1, 2] bcast_S2x4096x1_S2x4096x1024_0_1_2 v

/-- A vector of 1024 entries spread over every row. -/
def spreadVec (v : (⟨S1024, .f32⟩ : BufTy).Contents (Elt F)) : (⟨S2x4096x1024, .f32⟩ : BufTy).Contents (Elt F) :=
  broadcastInDim S2x4096x1024 ![0, 1, 2] bcast_S1x1x1024_S2x4096x1024_0_1_2
    (broadcastInDim S1x1x1024 ![2] bcast_S1024_S1x1x1024_2 v)

/-- The row normalisation. -/
def rowNorm (e : (⟨S2x4096x1024, .f32⟩ : BufTy).Contents (Elt F)) (gamma beta : (⟨S1024, .f32⟩ : BufTy).Contents (Elt F)) :
    (⟨S2x4096x1024, .f32⟩ : BufTy).Contents (Elt F) :=
  addf
    (mulf
      (Host.divf (subf e (spread (meanCol e)))
        (spread (Host.sqrt (addf
          (meanCol (mulf (subf e (spread (meanCol e))) (subf e (spread (meanCol e)))))
          (broadcastInDim S2x4096x1 ![] bcast_S_S2x4096x1 (constant S_ .f32 0x2B8CBCCC#32))))))
      (spreadVec gamma))
    (spreadVec beta)

/-- The rows that are normalised: x + position rows + type rows. -/
def emb (x : (⟨S2x4096x1024, .f32⟩ : BufTy).Contents (Elt F)) (ids : (⟨S2x4096, .i32⟩ : BufTy).Contents (Elt F))
    (pos : (⟨S8192x1024, .f32⟩ : BufTy).Contents (Elt F)) (tt : (⟨S2x1024, .f32⟩ : BufTy).Contents (Elt F)) :
    (⟨S2x4096x1024, .f32⟩ : BufTy).Contents (Elt F) :=
  addf (addf x (takePos pos posIds)) (takeType tt ids)

/-- The reference's result of its six arguments. -/
def refOut (x : (⟨S2x4096x1024, .f32⟩ : BufTy).Contents (Elt F)) (ids : (⟨S2x4096, .i32⟩ : BufTy).Contents (Elt F))
    (pos : (⟨S8192x1024, .f32⟩ : BufTy).Contents (Elt F)) (tt : (⟨S2x1024, .f32⟩ : BufTy).Contents (Elt F))
    (gamma beta : (⟨S1024, .f32⟩ : BufTy).Contents (Elt F)) : (⟨S2x4096x1024, .f32⟩ : BufTy).Contents (Elt F) :=
  rowNorm (emb x ids pos tt) gamma beta

end Cert.ReferenceIdeal.RefValue

end
-- ==== Proof.RefRun.lean ====
/-
  The reference program's run. The program is a straight line of host operations once its two calls of `take` (each
  with a nested `where`) are read at their call sites over the calls' own buffers. The line is listed in four
  consecutive parts, in the program's order:

  * `opsIds`  — the six operations that build the position ids;
  * `opsPos`  — `take` of the 8192-row table at the position ids (its `where` is the seventh line);
  * `opsType` — `take` of the 2-row table at the type ids;
  * `opsNorm` — the two additions that form the rows, and the normalisation of each row.

  What a buffer holds after a part is the fold of the part's operations over what the buffers held before it; the fold
  over the whole line is the parts' folds composed (`after_parts`). Each part's result is one of the terms of
  RefTerm.lean by unfolding: `posIds`, `takePos`, `takeType`, `rowNorm`; no part writes an argument buffer, and
  the third part does not write the second part's result. Composed, the result buffer holds `refOut` of the six
  arguments, which is the statement `run`.
-/
import proofs.«124012_g4166118277671_cont_sun_m_48_6_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line, in four parts -/

/-- The position ids: iota, the constant one spread, their sum, and the sum spread to [1, 4096] and to [2, 4096]. -/
abbrev opsIds : List (HloOp τ sig (Elt F)) :=
  [ nullary main_v0 (iotaInDim S4096 32 0),
    nullary main_c (constantI S_ 32 1#32),
    unary main_c main_v1 (broadcastInDim S4096 ![] bcast_S_S4096 : (⟨S_, .i32⟩ : BufTy).Contents (Elt F) → (⟨S4096, .i32⟩ : BufTy).Contents (Elt F)),
    binary main_v1 main_v0 main_v2 (addi : (⟨S4096, .i32⟩ : BufTy).Contents (Elt F) → (⟨S4096, .i32⟩ : BufTy).Contents (Elt F) → (⟨S4096, .i32⟩ : BufTy).Contents (Elt F)),
    unary main_v2 main_v3 (broadcastInDim S1x4096 ![1] bcast_S4096_S1x4096_1 : (⟨S4096, .i32⟩ : BufTy).Contents (Elt F) → (⟨S1x4096, .i32⟩ : BufTy).Contents (Elt F)),
    unary main_v3 main_v4 (broadcastInDim S2x4096 ![0, 1] bcast_S1x4096_S2x4096_0_1 : (⟨S1x4096, .i32⟩ : BufTy).Contents (Elt F) → (⟨S2x4096, .i32⟩ : BufTy).Contents (Elt F)) ]

/-- `take` of the rows of the 8192-row table at the position ids, over the first call's buffers: the wrap of negative
    indices (the nested `where` is the select of the seventh line), the index column, the range test and its
    reduction to one bit per row, the gather, and the select against the not-a-number fill. -/
abbrev opsPos : List (HloOp τ sig (Elt F)) :=
  [ TRef.nullary main_call0.c (constantI S_ 32 0#32),
    TRef.unary main_call0.c main_call0.v0 (broadcastInDim S2x4096 ![] bcast_S_S2x4096),
    TRef.binary (.of main_v4 : TRef sig ⟨S2x4096, .i32⟩) main_call0.v0 main_call0.v1 (cmpi .slt),
    TRef.nullary main_call0.c_0 (constantI S_ 32 8192#32),
    TRef.unary main_call0.c_0 main_call0.v2 (broadcastInDim S2x4096 ![] bcast_S_S2x4096),
    TRef.binary (.of main_v4 : TRef sig ⟨S2x4096, .i32⟩) main_call0.v2 main_call0.v3 addi,
    TRef.ternary main_call0.v1 main_call0.v3 (.of main_v4 : TRef sig ⟨S2x4096, .i32⟩) main_call0.call0.v0 select,
    TRef.unary main_call0.call0.v0 main_call0.v5 (broadcastInDim S2x4096x1 ![0, 1] bcast_S2x4096_S2x4096x1_0_1),
    TRef.nullary main_call0.c_1 (constantI S1 32 8191#32),
    TRef.nullary main_call0.c_2 (constantI S_ 32 0#32),
    TRef.unary main_call0.c_2 main_call0.v6 (broadcastInDim S2x4096x1 ![] bcast_S_S2x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2x4096x1 ![0, 1, 2] bcast_S1x1x1_S2x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2x4096x1_S2x4096_d2 h_S_),
    TRef.binary (.of main_arg2 : TRef sig ⟨S8192x1024, .f32⟩) main_call0.v5 main_call0.v13 (fun x i => Host.gather gather_S8192x1024_S2x4096x1_S2x4096x1024_2_0_n_n_0_2_11024 x i),
    TRef.unary main_call0.v12 main_call0.v14 (broadcastInDim S2x4096x1024 ![0, 1] bcast_S2x4096_S2x4096x1024_0_1),
    TRef.nullary main_call0.cst (constant S_ .f32 0x7FC00000#32),
    TRef.unary main_call0.cst main_call0.v15 (broadcastInDim S2x4096x1024 ![] bcast_S_S2x4096x1024),
    TRef.ternary main_call0.v14 main_call0.v13 main_call0.v15 main_call0.v16 select ]

/-- `take` of the rows of the 2-row table at the type ids, over the second call's buffers: the same lines with
    wrap 2 and range [0, 1]. -/
abbrev opsType : List (HloOp τ sig (Elt F)) :=
  [ TRef.nullary main_call1.c (constantI S_ 32 0#32),
    TRef.unary main_call1.c main_call1.v0 (broadcastInDim S2x4096 ![] bcast_S_S2x4096),
    TRef.binary (.of main_arg1 : TRef sig ⟨S2x4096, .i32⟩) main_call1.v0 main_call1.v1 (cmpi .slt),
    TRef.nullary main_call1.c_0 (constantI S_ 32 2#32),
    TRef.unary main_call1.c_0 main_call1.v2 (broadcastInDim S2x4096 ![] bcast_S_S2x4096),
    TRef.binary (.of main_arg1 : TRef sig ⟨S2x4096, .i32⟩) main_call1.v2 main_call1.v3 addi,
    TRef.ternary main_call1.v1 main_call1.v3 (.of main_arg1 : TRef sig ⟨S2x4096, .i32⟩) main_call1.call0.v0 select,
    TRef.unary main_call1.call0.v0 main_call1.v5 (broadcastInDim S2x4096x1 ![0, 1] bcast_S2x4096_S2x4096x1_0_1),
    TRef.nullary main_call1.c_1 (constantI S1 32 1#32),
    TRef.nullary main_call1.c_2 (constantI S_ 32 0#32),
    TRef.unary main_call1.c_2 main_call1.v6 (broadcastInDim S2x4096x1 ![] bcast_S_S2x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S2x4096x1 ![0, 1, 2] bcast_S1x1x1_S2x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x4096x1_S2x4096_d2 h_S_),
    TRef.binary (.of main_arg3 : TRef sig ⟨S2x1024, .f32⟩) main_call1.v5 main_call1.v13 (fun x i => Host.gather gather_S2x1024_S2x4096x1_S2x4096x1024_2_0_n_n_0_2_11024 x i),
    TRef.unary main_call1.v12 main_call1.v14 (broadcastInDim S2x4096x1024 ![0, 1] bcast_S2x4096_S2x4096x1024_0_1),
    TRef.nullary main_call1.cst (constant S_ .f32 0x7FC00000#32),
    TRef.unary main_call1.cst main_call1.v15 (broadcastInDim S2x4096x1024 ![] bcast_S_S2x4096x1024),
    TRef.ternary main_call1.v14 main_call1.v13 main_call1.v15 main_call1.v16 select ]

/-- The rows x + position rows + type rows, and their normalisation: mean, centred row, variance, the division by
    the square root of variance plus epsilon, the scale and the shift. -/
abbrev opsNorm : List (HloOp τ sig (Elt F)) :=
  [ binary main_arg0 main_v5 main_v7 (addf : (⟨S2x4096x1024, .f32⟩ : BufTy).Contents (Elt F) → (⟨S2x4096x1024, .f32⟩ : BufTy).Contents (Elt F) → (⟨S2x4096x1024, .f32⟩ : BufTy).Contents (Elt F)),
    binary main_v7 main_v6 main_v8 (addf : (⟨S2x4096x1024, .f32⟩ : BufTy).Contents (Elt F) → (⟨S2x4096x1024, .f32⟩ : BufTy).Contents (Elt F) → (⟨S2x4096x1024, .f32⟩ : BufTy).Contents (Elt F)),
    nullary main_cst (constant S_ .f32 0x00000000#32),
    binary main_v8 main_cst main_v9 ((fun x v => Host.reduceAdd x v reducesTo_S2x4096x1024_S2x4096_d2 h_S_) : (⟨S2x4096x1024, .f32⟩ : BufTy).Contents (Elt F) → (⟨S_, .f32⟩ : BufTy).Contents (Elt F) → (⟨S2x4096, .f32⟩ : BufTy).Contents (Elt F)),
    unary main_v9 main_v10 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_0 (constant S_ .f32 0x44800000#32),
    unary main_cst_0 main_v11 (broadcastInDim S2x4096x1 ![] bcast_S_S2x4096x1 : (⟨S_, .f32⟩ : BufTy).Contents (Elt F) → (⟨S2x4096x1, .f32⟩ : BufTy).Contents (Elt F)),
    binary main_v10 main_v11 main_v12 (Host.divf : (⟨S2x4096x1, .f32⟩ : BufTy).Contents (Elt F) → (⟨S2x4096x1, .f32⟩ : BufTy).Contents (Elt F) → (⟨S2x4096x1, .f32⟩ : BufTy).Contents (Elt F)),
    unary main_v12 main_v13 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F)),
    binary main_v8 main_v13 main_v14 (subf : (⟨S2x4096x1024, .f32⟩ : BufTy).Contents (Elt F) → (⟨S2x4096x1024, .f32⟩ : BufTy).Contents (Elt F) → (⟨S2x4096x1024, .f32⟩ : BufTy).Contents (Elt F)),
    binary main_v14 main_v14 main_v15 (mulf : (⟨S2x4096x1024, .f32⟩ : BufTy).Contents (Elt F) → (⟨S2x4096x1024, .f32⟩ : BufTy).Contents (Elt F) → (⟨S2x4096x1024, .f32⟩ : BufTy).Contents (Elt F)),
    nullary main_cst_1 (constant S_ .f32 0x00000000#32),
    binary main_v15 main_cst_1 main_v16 ((fun x v => Host.reduceAdd x v reducesTo_S2x4096x1024_S2x4096_d2 h_S_) : (⟨S2x4096x1024, .f32⟩ : BufTy).Contents (Elt F) → (⟨S_, .f32⟩ : BufTy).Contents (Elt F) → (⟨S2x4096, .f32⟩ : BufTy).Contents (Elt F)),
    unary main_v16 main_v17 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_2 (constant S_ .f32 0x44800000#32),
    unary main_cst_2 main_v18 (broadcastInDim S2x4096x1 ![] bcast_S_S2x4096x1 : (⟨S_, .f32⟩ : BufTy).Contents (Elt F) → (⟨S2x4096x1, .f32⟩ : BufTy).Contents (Elt F)),
    binary main_v17 main_v18 main_v19 (Host.divf : (⟨S2x4096x1, .f32⟩ : BufTy).Contents (Elt F) → (⟨S2x4096x1, .f32⟩ : BufTy).Contents (Elt F) → (⟨S2x4096x1, .f32⟩ : BufTy).Contents (Elt F)),
    unary main_v12 main_v20 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F)),
    binary main_v8 main_v20 main_v21 (subf : (⟨S2x4096x1024, .f32⟩ : BufTy).Contents (Elt F) → (⟨S2x4096x1024, .f32⟩ : BufTy).Contents (Elt F) → (⟨S2x4096x1024, .f32⟩ : BufTy).Contents (Elt F)),
    nullary main_cst_3 (constant S_ .f32 0x2B8CBCCC#32),
    unary main_cst_3 main_v22 (broadcastInDim S2x4096x1 ![] bcast_S_S2x4096x1 : (⟨S_, .f32⟩ : BufTy).Contents (Elt F) → (⟨S2x4096x1, .f32⟩ : BufTy).Contents (Elt F)),
    binary main_v19 main_v22 main_v23 (addf : (⟨S2x4096x1, .f32⟩ : BufTy).Contents (Elt F) → (⟨S2x4096x1, .f32⟩ : BufTy).Contents (Elt F) → (⟨S2x4096x1, .f32⟩ : BufTy).Contents (Elt F)),
    unary main_v23 main_v24 (Host.sqrt : (⟨S2x4096x1, .f32⟩ : BufTy).Contents (Elt F) → (⟨S2x4096x1, .f32⟩ : BufTy).Contents (Elt F)),
    unary main_v24 main_v25 (broadcastInDim S2x4096x1024 ![0, 1, 2] bcast_S2x4096x1_S2x4096x1024_0_1_2 : (⟨S2x4096x1, .f32⟩ : BufTy).Contents (Elt F) → (⟨S2x4096x1024, .f32⟩ : BufTy).Contents (Elt F)),
    binary main_v21 main_v25 main_v26 (Host.divf : (⟨S2x4096x1024, .f32⟩ : BufTy).Contents (Elt F) → (⟨S2x4096x1024, .f32⟩ : BufTy).Contents (Elt F) → (⟨S2x4096x1024, .f32⟩ : BufTy).Contents (Elt F)),
    unary main_arg4 main_v27 (broadcastInDim S1x1x1024 ![2] bcast_S1024_S1x1x1024_2 : (⟨S1024, .f32⟩ : BufTy).Contents (Elt F) → (⟨S1x1x1024, .f32⟩ : BufTy).Contents (Elt F)),
    unary main_v27 main_v28 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F)),
    binary main_v26 main_v28 main_v29 (mulf : (⟨S2x4096x1024, .f32⟩ : BufTy).Contents (Elt F) → (⟨S2x4096x1024, .f32⟩ : BufTy).Contents (Elt F) → (⟨S2x4096x1024, .f32⟩ : BufTy).Contents (Elt F)),
    unary main_arg5 main_v30 (broadcastInDim S1x1x1024 ![2] bcast_S1024_S1x1x1024_2 : (⟨S1024, .f32⟩ : BufTy).Contents (Elt F) → (⟨S1x1x1024, .f32⟩ : BufTy).Contents (Elt F)),
    unary main_v30 main_v31 (broadcastInDim S2x4096x1024 ![0, 1, 2] bcast_S1x1x1024_S2x4096x1024_0_1_2 : (⟨S1x1x1024, .f32⟩ : BufTy).Contents (Elt F) → (⟨S2x4096x1024, .f32⟩ : BufTy).Contents (Elt F)),
    binary main_v29 main_v31 main_v32 (addf : (⟨S2x4096x1024, .f32⟩ : BufTy).Contents (Elt F) → (⟨S2x4096x1024, .f32⟩ : BufTy).Contents (Elt F) → (⟨S2x4096x1024, .f32⟩ : BufTy).Contents (Elt F)) ]

/-- The whole line. -/
abbrev ops : List (HloOp τ sig (Elt F)) := opsIds ++ (opsPos ++ (opsType ++ opsNorm))

/-! ## The program is the line -/

set_option maxRecDepth 4096 in
set_option maxHeartbeats 2000000 in
/-- @main is that straight line: the callees' definitions unfolded at their calls and the records at their fields,
    both sides are one chain of steps once sequencing is reassociated. -/
theorem main_eq (c : Dev nD) : main (F := F) c = seq ops := by
  simp only [main, fn_take.body, fn_take_0.body, fn_where.body, fn_where_1.body, ops, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsIds_sub : (opsIds : List (HloOp τ sig (Elt F))).Forall fun op => op.bufs ⊆ tcRefs τ sig :=
  ⟨nullary_bufs_sub .., nullary_bufs_sub .., unary_bufs_sub .., binary_bufs_sub .., unary_bufs_sub .., unary_bufs_sub ..⟩
theorem opsPos_sub : (opsPos : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsType_sub : (opsType : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsNorm_sub : (opsNorm : List (HloOp τ sig (Elt F))).Forall fun op => op.bufs ⊆ tcRefs τ sig :=
  ⟨binary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- Every operation of the line touches TensorCore references only. -/
theorem ops_sub : (ops : List (HloOp τ sig (Elt F))).Forall fun op => op.bufs ⊆ tcRefs τ sig :=
  List.forall_append.mpr ⟨opsIds_sub, List.forall_append.mpr ⟨opsPos_sub, List.forall_append.mpr ⟨opsType_sub, opsNorm_sub⟩⟩⟩

/-- Every operation of the line determines its results. -/
theorem ops_fresh : ∀ op ∈ (ops : List (HloOp τ sig (Elt F))), op.fresh = ∅ := by
  intro op h
  rcases List.mem_append.mp h with h | h
  · (repeat (cases h with | head => rfl | tail _ h => ?_)); exact nomatch h
  rcases List.mem_append.mp h with h | h
  · (repeat (cases h with | head => rfl | tail _ h => ?_)); exact nomatch h
  rcases List.mem_append.mp h with h | h
  · (repeat (cases h with | head => rfl | tail _ h => ?_)); exact nomatch h
  · (repeat (cases h with | head => rfl | tail _ h => ?_)); exact nomatch h

/-! ## The fold, part by part -/

/-- The fold over two lines run one after the other is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line's fold is the four parts' folds composed. -/
theorem after_parts (V : Valuation τ sig (Elt F)) :
    after ops V = after opsNorm (after opsType (after opsPos (after opsIds V))) := by
  simp only [ops, after_app]

attribute [local irreducible] Host.reduce Host.gather Host.reduceAdd

/-- After the first part the position-id buffer holds `posIds`. -/
theorem opsIds_v4 (W : Valuation τ sig (Elt F)) :
    after opsIds W (main_v4 : DevRef τ sig) = posIds := by
  simp only [after_cons, after_nil]
  rfl

set_option maxHeartbeats 2000000 in
/-- After the second part its result buffer holds `takePos` of the table's and the index buffer's contents. -/
theorem opsPos_v5 (W : Valuation τ sig (Elt F)) :
    after opsPos W (main_v5 : DevRef τ sig) = takePos (W (main_arg2 : DevRef τ sig)) (W (main_v4 : DevRef τ sig)) := by
  simp only [after_cons, after_nil]
  rfl

set_option maxHeartbeats 2000000 in
/-- After the third part its result buffer holds `takeType` of the table's and the index argument's contents. -/
theorem opsType_v6 (W : Valuation τ sig (Elt F)) :
    after opsType W (main_v6 : DevRef τ sig) = takeType (W (main_arg3 : DevRef τ sig)) (W (main_arg1 : DevRef τ sig)) := by
  simp only [after_cons, after_nil]
  rfl

set_option maxRecDepth 8192 in
/-- After the fourth part the result buffer holds the normalisation of the summed rows. -/
theorem opsNorm_v32 (W : Valuation τ sig (Elt F)) :
    after opsNorm W (main_v32 : DevRef τ sig)
      = rowNorm (addf (addf (W (main_arg0 : DevRef τ sig)) (W (main_v5 : DevRef τ sig))) (W (main_v6 : DevRef τ sig)))
          (W (main_arg4 : DevRef τ sig)) (W (main_arg5 : DevRef τ sig)) := by
  simp only [after_cons, after_nil]
  rfl

/-! ## What each part leaves alone -/

theorem opsIds_keep_main_arg0 (W : Valuation τ sig (Elt F)) :
    after opsIds W (main_arg0 : DevRef τ sig) = W (main_arg0 : DevRef τ sig) := by
  simp only [after_cons, after_nil]
  rfl
theorem opsIds_keep_main_arg1 (W : Valuation τ sig (Elt F)) :
    after opsIds W (main_arg1 : DevRef τ sig) = W (main_arg1 : DevRef τ sig) := by
  simp only [after_cons, after_nil]
  rfl
theorem opsIds_keep_main_arg2 (W : Valuation τ sig (Elt F)) :
    after opsIds W (main_arg2 : DevRef τ sig) = W (main_arg2 : DevRef τ sig) := by
  simp only [after_cons, after_nil]
  rfl
theorem opsIds_keep_main_arg3 (W : Valuation τ sig (Elt F)) :
    after opsIds W (main_arg3 : DevRef τ sig) = W (main_arg3 : DevRef τ sig) := by
  simp only [after_cons, after_nil]
  rfl
theorem opsIds_keep_main_arg4 (W : Valuation τ sig (Elt F)) :
    after opsIds W (main_arg4 : DevRef τ sig) = W (main_arg4 : DevRef τ sig) := by
  simp only [after_cons, after_nil]
  rfl
theorem opsIds_keep_main_arg5 (W : Valuation τ sig (Elt F)) :
    after opsIds W (main_arg5 : DevRef τ sig) = W (main_arg5 : DevRef τ sig) := by
  simp only [after_cons, after_nil]
  rfl
theorem opsPos_keep_main_arg0 (W : Valuation τ sig (Elt F)) :
    after opsPos W (main_arg0 : DevRef τ sig) = W (main_arg0 : DevRef τ sig) := by
  simp only [after_cons, after_nil]
  rfl
theorem opsPos_keep_main_arg1 (W : Valuation τ sig (Elt F)) :
    after opsPos W (main_arg1 : DevRef τ sig) = W (main_arg1 : DevRef τ sig) := by
  simp only [after_cons, after_nil]
  rfl
theorem opsPos_keep_main_arg2 (W : Valuation τ sig (Elt F)) :
    after opsPos W (main_arg2 : DevRef τ sig) = W (main_arg2 : DevRef τ sig) := by
  simp only [after_cons, after_nil]
  rfl
theorem opsPos_keep_main_arg3 (W : Valuation τ sig (Elt F)) :
    after opsPos W (main_arg3 : DevRef τ sig) = W (main_arg3 : DevRef τ sig) := by
  simp only [after_cons, after_nil]
  rfl
theorem opsPos_keep_main_arg4 (W : Valuation τ sig (Elt F)) :
    after opsPos W (main_arg4 : DevRef τ sig) = W (main_arg4 : DevRef τ sig) := by
  simp only [after_cons, after_nil]
  rfl
theorem opsPos_keep_main_arg5 (W : Valuation τ sig (Elt F)) :
    after opsPos W (main_arg5 : DevRef τ sig) = W (main_arg5 : DevRef τ sig) := by
  simp only [after_cons, after_nil]
  rfl
theorem opsType_keep_main_arg0 (W : Valuation τ sig (Elt F)) :
    after opsType W (main_arg0 : DevRef τ sig) = W (main_arg0 : DevRef τ sig) := by
  simp only [after_cons, after_nil]
  rfl
theorem opsType_keep_main_arg1 (W : Valuation τ sig (Elt F)) :
    after opsType W (main_arg1 : DevRef τ sig) = W (main_arg1 : DevRef τ sig) := by
  simp only [after_cons, after_nil]
  rfl
theorem opsType_keep_main_arg2 (W : Valuation τ sig (Elt F)) :
    after opsType W (main_arg2 : DevRef τ sig) = W (main_arg2 : DevRef τ sig) := by
  simp only [after_cons, after_nil]
  rfl
theorem opsType_keep_main_arg3 (W : Valuation τ sig (Elt F)) :
    after opsType W (main_arg3 : DevRef τ sig) = W (main_arg3 : DevRef τ sig) := by
  simp only [after_cons, after_nil]
  rfl
theorem opsType_keep_main_arg4 (W : Valuation τ sig (Elt F)) :
    after opsType W (main_arg4 : DevRef τ sig) = W (main_arg4 : DevRef τ sig) := by
  simp only [after_cons, after_nil]
  rfl
theorem opsType_keep_main_arg5 (W : Valuation τ sig (Elt F)) :
    after opsType W (main_arg5 : DevRef τ sig) = W (main_arg5 : DevRef τ sig) := by
  simp only [after_cons, after_nil]
  rfl
theorem opsType_keep_main_v5 (W : Valuation τ sig (Elt F)) :
    after opsType W (main_v5 : DevRef τ sig) = W (main_v5 : DevRef τ sig) := by
  simp only [after_cons, after_nil]
  rfl
theorem opsNorm_keep_main_arg0 (W : Valuation τ sig (Elt F)) :
    after opsNorm W (main_arg0 : DevRef τ sig) = W (main_arg0 : DevRef τ sig) := by
  simp only [after_cons, after_nil]
  rfl
theorem opsNorm_keep_main_arg1 (W : Valuation τ sig (Elt F)) :
    after opsNorm W (main_arg1 : DevRef τ sig) = W (main_arg1 : DevRef τ sig) := by
  simp only [after_cons, after_nil]
  rfl
theorem opsNorm_keep_main_arg2 (W : Valuation τ sig (Elt F)) :
    after opsNorm W (main_arg2 : DevRef τ sig) = W (main_arg2 : DevRef τ sig) := by
  simp only [after_cons, after_nil]
  rfl
theorem opsNorm_keep_main_arg3 (W : Valuation τ sig (Elt F)) :
    after opsNorm W (main_arg3 : DevRef τ sig) = W (main_arg3 : DevRef τ sig) := by
  simp only [after_cons, after_nil]
  rfl
theorem opsNorm_keep_main_arg4 (W : Valuation τ sig (Elt F)) :
    after opsNorm W (main_arg4 : DevRef τ sig) = W (main_arg4 : DevRef τ sig) := by
  simp only [after_cons, after_nil]
  rfl
theorem opsNorm_keep_main_arg5 (W : Valuation τ sig (Elt F)) :
    after opsNorm W (main_arg5 : DevRef τ sig) = W (main_arg5 : DevRef τ sig) := by
  simp only [after_cons, after_nil]
  rfl

/-! ## The whole line -/

/-- The result buffer after the whole line: `refOut` of the six arguments' contents. -/
theorem out_eq (V : Valuation τ sig (Elt F)) :
    after ops V (main_v32 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) := by
  rw [after_parts, opsNorm_v32, opsType_v6, opsType_keep_main_v5, opsPos_v5, opsIds_v4,
    opsType_keep_main_arg0, opsType_keep_main_arg4, opsType_keep_main_arg5,
    opsPos_keep_main_arg0, opsPos_keep_main_arg1, opsPos_keep_main_arg3, opsPos_keep_main_arg4, opsPos_keep_main_arg5,
    opsIds_keep_main_arg0, opsIds_keep_main_arg1, opsIds_keep_main_arg2, opsIds_keep_main_arg3, opsIds_keep_main_arg4,
    opsIds_keep_main_arg5]
  rfl

/-- No operation of the line writes this argument. -/
theorem main_arg0_eq (V : Valuation τ sig (Elt F)) :
    after ops V (main_arg0 : DevRef τ sig) = V (main_arg0 : DevRef τ sig) := by
  rw [after_parts, opsNorm_keep_main_arg0, opsType_keep_main_arg0, opsPos_keep_main_arg0, opsIds_keep_main_arg0]
/-- No operation of the line writes this argument. -/
theorem main_arg1_eq (V : Valuation τ sig (Elt F)) :
    after ops V (main_arg1 : DevRef τ sig) = V (main_arg1 : DevRef τ sig) := by
  rw [after_parts, opsNorm_keep_main_arg1, opsType_keep_main_arg1, opsPos_keep_main_arg1, opsIds_keep_main_arg1]
/-- No operation of the line writes this argument. -/
theorem main_arg2_eq (V : Valuation τ sig (Elt F)) :
    after ops V (main_arg2 : DevRef τ sig) = V (main_arg2 : DevRef τ sig) := by
  rw [after_parts, opsNorm_keep_main_arg2, opsType_keep_main_arg2, opsPos_keep_main_arg2, opsIds_keep_main_arg2]
/-- No operation of the line writes this argument. -/
theorem main_arg3_eq (V : Valuation τ sig (Elt F)) :
    after ops V (main_arg3 : DevRef τ sig) = V (main_arg3 : DevRef τ sig) := by
  rw [after_parts, opsNorm_keep_main_arg3, opsType_keep_main_arg3, opsPos_keep_main_arg3, opsIds_keep_main_arg3]
/-- No operation of the line writes this argument. -/
theorem main_arg4_eq (V : Valuation τ sig (Elt F)) :
    after ops V (main_arg4 : DevRef τ sig) = V (main_arg4 : DevRef τ sig) := by
  rw [after_parts, opsNorm_keep_main_arg4, opsType_keep_main_arg4, opsPos_keep_main_arg4, opsIds_keep_main_arg4]
/-- No operation of the line writes this argument. -/
theorem main_arg5_eq (V : Valuation τ sig (Elt F)) :
    after ops V (main_arg5 : DevRef τ sig) = V (main_arg5 : DevRef τ sig) := by
  rw [after_parts, opsNorm_keep_main_arg5, opsType_keep_main_arg5, opsPos_keep_main_arg5, opsIds_keep_main_arg5]

/-! ## The run -/

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (out_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c)),
      (h c main_arg5).trans (main_arg5_eq (launchContents m c))⟩)
    (run_seq scopedRefs_eq scopedSems_eq defs main (fun _ => ops) main_eq (fun _ => ops_sub) m ρ (fun _ => ops_fresh))

end Cert.ReferenceIdeal.RefValue

end
-- ==== Proof.RefTake.lean ====
/-
  The reference's two table look-ups and the rows it normalises, read at an index.

  A `take` of rows along axis 0 of an N-row table at an index array [2, 4096] is written, in the reference, as:
  wrap a negative index by N; gather the row at the wrapped index clamped into [0, N − 1]; replace the row by the
  not-a-number word where the wrapped index lies outside [0, N − 1]. When the index word w at (b, s) already satisfies
  0 ≤ w < N as an unsigned word (N far below 2³¹), nothing is wrapped, nothing is clamped and nothing is replaced:
  entry (b, s, k) is the table's entry (w, k).

  The position ids are the words s + 1 (an iota along the 4096 positions plus the constant one), all below 8192, so the
  position look-up reads row s + 1 of the position table; the type ids are assumed to be the words 0 or 1, so the type
  look-up reads row 0 or row 1 of the two-row table. The rows normalised are the entrywise sums x + position row + type row.
-/
import proofs.«124012_g4166118277671_cont_sun_m_48_6_alg».proof.Proof.RefTerm
import proofs.«124012_g4166118277671_cont_sun_m_48_6_alg».proof.Proof.RowSpec
import Idealize.ShloMosaic.Lib.ValueIdx
import Idealize.ShloMosaic.Lib.Affine
import Idealize.ShloMosaic.PureOps.Reduce
import Idealize.ShloMosaic.Lib.Pipeline.Value

noncomputable section

namespace Cert.ReferenceIdeal.RefValue

open Cert.ReferenceIdeal Cert.ReferenceIdeal.Gen Idealize.ShloMosaic Idealize.ShloMosaic.ValueIdx

variable {α : Type}

/-! ## Words: a small unsigned word is its own signed value -/

/-- A 32-bit word below 2³¹ read as a signed integer is its unsigned value. -/
theorem toInt_of_small (w : BitVec 32) (h : w.toNat < 2147483648) : w.toInt = (w.toNat : Int) := by
  rw [BitVec.toInt_eq_toNat_cond]
  split <;> omega

/-- A word that is not negative as a signed word is left alone by the wrap of negative indices. -/
theorem wrap_small (n w : BitVec 32) (h : w.toNat < 2147483648) :
    Scalar.select (IntOp.cmpi .slt w 0#32) (IntOp.addi w n) w = w := by
  have hc : IntOp.cmpi .slt w 0#32 = 0#1 := eq_zero_of_ne_one fun e => by
    have h1 := IntOp.cmpi_slt.mp e
    rw [toInt_of_small w h] at h1
    have h0 : (0#32 : BitVec 32).toInt = 0 := rfl
    omega
  rw [hc, select_zero]

/-- A word between 0 and a bound below 2³¹ passes the two signed range comparisons. -/
theorem range_small (hi w : BitVec 32) (h : w.toNat ≤ hi.toNat) (hh : hi.toNat < 2147483648) :
    IntOp.andi (IntOp.cmpi .sge w 0#32) (IntOp.cmpi .sle w hi) = 1#1 := by
  have h0 : (0#32 : BitVec 32).toInt = 0 := rfl
  have h1 : IntOp.cmpi .sge w 0#32 = 1#1 := IntOp.cmpi_sge.mpr (by rw [toInt_of_small w (by omega), h0]; omega)
  have h2 : IntOp.cmpi .sle w hi = 1#1 :=
    IntOp.cmpi_sle.mpr (by rw [toInt_of_small w (by omega), toInt_of_small hi hh]; omega)
  rw [h1, h2]; rfl

/-! ## Broadcasts of an array [2, 4096] along a new last axis -/

/-- An array [2, 4096] broadcast to [2, 4096, 1] reads, at (b, s, u), the operand at (b, s). -/
theorem bcast_col_apply (v : S2x4096.Idx → α) (b : Fin 2) (s : Fin 4096) (u : Fin 1) :
    broadcastInDim S2x4096x1 ![0, 1] bcast_S2x4096_S2x4096x1_0_1 v (ix3 b s u) = v (ix2 b s) := by
  refine broadcastInDim_apply _ _ v (ix3 b s u) (ix2 b s) fun a => ?_
  match a with
  | ⟨0, _⟩ => rfl
  | ⟨1, _⟩ => rfl

/-- An array [2, 4096] broadcast to [2, 4096, 1024] reads, at (b, s, k), the operand at (b, s). -/
theorem bcast_rows_apply (v : S2x4096.Idx → α) (b : Fin 2) (s : Fin 4096) (k : Fin 1024) :
    broadcastInDim S2x4096x1024 ![0, 1] bcast_S2x4096_S2x4096x1024_0_1 v (ix3 b s k) = v (ix2 b s) := by
  refine broadcastInDim_apply _ _ v (ix3 b s k) (ix2 b s) fun a => ?_
  match a with
  | ⟨0, _⟩ => rfl
  | ⟨1, _⟩ => rfl

/-! ## The conjunction over a unit axis -/

instance : Std.Commutative (IntOp.andi : BitVec 1 → BitVec 1 → BitVec 1) := ⟨fun x y => BitVec.and_comm x y⟩
instance : Std.Associative (IntOp.andi : BitVec 1 → BitVec 1 → BitVec 1) := ⟨fun x y z => BitVec.and_assoc x y z⟩

/-- The reduction by `and`, from the bit 1, over the unit last axis of a one-bit array [2, 4096, 1] is, at (b, s), the one
    bit at (b, s, 0). -/
theorem fold_andi_unit {n : Nat} (hn : n = 1) (f : Fin n → BitVec 1) :
    (Finset.univ : Finset (Fin n)).fold IntOp.andi 1#1 f = f ⟨0, by omega⟩ := by
  subst hn
  rw [Finset.univ_unique, Finset.fold_singleton]
  show IntOp.andi (f 0) 1#1 = f 0
  generalize f 0 = v
  revert v; decide

theorem reduce_unit_apply (p : S2x4096x1.Idx → BitVec 1) (b : Fin 2) (s : Fin 4096) :
    Host.reduce IntOp.andi p (constantI S_ 1 1#1) reducesTo_S2x4096x1_S2x4096_d2 h_S_ (ix2 b s) = p (ix3 b s (0 : Fin 1)) := by
  have hR : S2x4096x1.Reduces [2] S2x4096 := by decide
  refine (Host.reduce_eq_fold_single IntOp.andi p _ reducesTo_S2x4096x1_S2x4096_d2 hR h_S_ (ix2 b s)).trans ?_
  refine (fold_andi_unit (n := S2x4096x1.size 2) rfl (p ∘ hR.lift (ix2 b s))).trans ?_
  refine congrArg p ?_
  funext c; apply Fin.ext
  match c with
  | ⟨0, _⟩ => rfl
  | ⟨1, _⟩ => rfl
  | ⟨2, _⟩ => rfl

/-- The range mask at (b, s): the two signed comparisons of the index at (b, s, 0). -/
theorem inRange_apply (hi : BitVec 32) (col : S2x4096x1.Idx → BitVec 32) (b : Fin 2) (s : Fin 4096) :
    inRange (F := Ideal) hi col (ix2 b s)
      = IntOp.andi (IntOp.cmpi .sge (col (ix3 b s (0 : Fin 1))) 0#32) (IntOp.cmpi .sle (col (ix3 b s (0 : Fin 1))) hi) := by
  unfold inRange
  rw [reduce_unit_apply]
  rfl

/-! ## The gather of rows -/

/-- The dimension numbers of a gather of whole rows of a table [N, C] at start indices [R, S, 1] into [R, S, C]:
    the last result axis is the offset axis, the row axis is collapsed and is the one the start index names. -/
abbrev rowDims (N R S C : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- That gather at (b, s, k): the table at the row the start index at (b, s, 0) names, read signed and clamped into
    [0, N − 1], and at column k. -/
theorem gather_rows_apply {N R S C w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (b : Fin R) (s : Fin S) (k : Fin C) :
    Host.gather (rowDims N R S C wf) x idx (ix3 b s k)
      = x (ix2 ⟨min (idx (ix3 b s (0 : Fin 1))).toInt.toNat (N - 1), by omega⟩ k) := by
  unfold Host.gather
  refine congrArg x (funext fun a => Fin.ext ?_)
  match a with
  | ⟨0, _⟩ =>
    show (rowDims N R S C wf).start (ix3 b s k) idx 0 + (rowDims N R S C wf).batchCoord (ix3 b s k) 0
      + (rowDims N R S C wf).offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R S C wf).startIndexMap from List.mem_singleton.mpr rfl)]
    have hsi : (rowDims N R S C wf).siIdx (ix3 b s k) ⟨List.idxOf (0 : Fin 2) (rowDims N R S C wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims N R S C wf).start (ix3 b s k) idx 1 + (rowDims N R S C wf).batchCoord (ix3 b s k) 1
      + (rowDims N R S C wf).offCoord (ix3 b s k) 1 = k.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The two gathers of the reference carry those dimension numbers. -/
theorem gatherPos_eq : gather_S8192x1024_S2x4096x1_S2x4096x1024_2_0_n_n_0_2_11024
    = rowDims 8192 2 4096 1024 gather_S8192x1024_S2x4096x1_S2x4096x1024_2_0_n_n_0_2_11024_wf := rfl
theorem gatherType_eq : gather_S2x1024_S2x4096x1_S2x4096x1024_2_0_n_n_0_2_11024
    = rowDims 2 2 4096 1024 gather_S2x1024_S2x4096x1_S2x4096x1024_2_0_n_n_0_2_11024_wf := rfl

/-! ## The two look-ups at an index -/

/-- The wrapped index column at (b, s, 0) is the index at (b, s) when that word is not negative. -/
theorem idxCol_wrap_apply (n : BitVec 32) (idx : S2x4096.Idx → BitVec 32) (b : Fin 2) (s : Fin 4096)
    (h : (idx (ix2 b s)).toNat < 2147483648) :
    idxCol (F := Ideal) (wrapIdx n idx) (ix3 b s (0 : Fin 1)) = idx (ix2 b s) := by
  unfold idxCol
  rw [bcast_col_apply]
  exact wrap_small n _ h

/-- The look-up in the 8192-row table at an index word below 8192: the table's row at that word. -/
theorem takePos_apply (tbl : S8192x1024.Idx → EReal) (idx : S2x4096.Idx → BitVec 32) (b : Fin 2) (s : Fin 4096) (k : Fin 1024)
    (h : (idx (ix2 b s)).toNat < 8192) :
    takePos (F := Ideal) tbl idx (ix3 b s k) = tbl (ix2 (⟨(idx (ix2 b s)).toNat, h⟩ : Fin 8192) k) := by
  have hc := idxCol_wrap_apply 8192#32 idx b s (by omega)
  have hm : inRange (F := Ideal) 8191#32 (idxCol (wrapIdx 8192#32 idx)) (ix2 b s) = 1#1 := by
    rw [inRange_apply, hc]
    exact range_small 8191#32 _ (by show _ ≤ 8191; omega) (by decide)
  have hw := toInt_of_small (idx (ix2 b s)) (by omega)
  unfold takePos
  rw [select_apply, bcast_rows_apply, hm, select_one, gatherPos_eq, gather_rows_apply (by decide)]
  exact congrArg (fun r : Fin 8192 => tbl (ix2 r k)) (Fin.ext (by show min _ (8192 - 1) = (idx (ix2 b s)).toNat; rw [hc]; omega))

/-- The look-up in the two-row table at an index word below 2: the table's row at that word. -/
theorem takeType_apply (tbl : S2x1024.Idx → EReal) (idx : S2x4096.Idx → BitVec 32) (b : Fin 2) (s : Fin 4096) (k : Fin 1024)
    (h : (idx (ix2 b s)).toNat < 2) :
    takeType (F := Ideal) tbl idx (ix3 b s k) = tbl (ix2 (⟨(idx (ix2 b s)).toNat, h⟩ : Fin 2) k) := by
  have hc := idxCol_wrap_apply 2#32 idx b s (by omega)
  have hm : inRange (F := Ideal) 1#32 (idxCol (wrapIdx 2#32 idx)) (ix2 b s) = 1#1 := by
    rw [inRange_apply, hc]
    exact range_small 1#32 _ (by show _ ≤ 1; omega) (by decide)
  have hw := toInt_of_small (idx (ix2 b s)) (by omega)
  unfold takeType
  rw [select_apply, bcast_rows_apply, hm, select_one, gatherType_eq, gather_rows_apply (by decide)]
  exact congrArg (fun r : Fin 2 => tbl (ix2 r k)) (Fin.ext (by show min _ (2 - 1) = (idx (ix2 b s)).toNat; rw [hc]; omega))

/-! ## The position ids, and the rows that are normalised -/

/-- The position id at (b, s) is the word s + 1. -/
theorem posIds_apply (b : Fin 2) (s : Fin 4096) : posIds (F := Ideal) (ix2 b s) = BitVec.ofNat 32 (s.val + 1) := by
  show IntOp.addi 1#32 (BitVec.ofNat 32 s.val) = _
  refine BitVec.eq_of_toNat_eq ?_
  rw [IntOp.addi, BitVec.toNat_add, BitVec.toNat_ofNat, BitVec.toNat_ofNat, BitVec.toNat_ofNat]
  have := s.isLt
  omega

theorem posIds_toNat (b : Fin 2) (s : Fin 4096) : (posIds (F := Ideal) (ix2 b s)).toNat = s.val + 1 := by
  rw [posIds_apply, BitVec.toNat_ofNat]
  have := s.isLt
  omega

/-- The position look-up at (b, s, k): row s + 1 of the position table. -/
theorem takePos_posIds_apply (pos : S8192x1024.Idx → EReal) (b : Fin 2) (s : Fin 4096) (k : Fin 1024) :
    takePos (F := Ideal) pos posIds (ix3 b s k) = pos (ix2 (Cert.RowSpec.posRow s) k) := by
  have h : (posIds (F := Ideal) (ix2 b s)).toNat < 8192 := by rw [posIds_toNat]; have := s.isLt; omega
  rw [takePos_apply pos posIds b s k h]
  exact congrArg (fun r : Fin 8192 => pos (ix2 r k)) (Fin.ext (posIds_toNat b s))

/-- The type look-up at (b, s, k) for an id that is the word 0 or 1: row 0 for the id 0, row 1 otherwise. -/
theorem takeType_ids_apply (tt : S2x1024.Idx → EReal) (ids : S2x4096.Idx → BitVec 32) (b : Fin 2) (s : Fin 4096) (k : Fin 1024)
    (hid : ids (ix2 b s) = 0#32 ∨ ids (ix2 b s) = 1#32) :
    takeType (F := Ideal) tt ids (ix3 b s k)
      = if ids (ix2 b s) = 0#32 then tt (ix2 (0 : Fin 2) k) else tt (ix2 (1 : Fin 2) k) := by
  rcases hid with h0 | h1
  · have h : (ids (ix2 b s)).toNat < 2 := by rw [h0]; decide
    rw [takeType_apply tt ids b s k h, if_pos h0]
    exact congrArg (fun r : Fin 2 => tt (ix2 r k)) (Fin.ext (by show (ids (ix2 b s)).toNat = 0; rw [h0]; rfl))
  · have h : (ids (ix2 b s)).toNat < 2 := by rw [h1]; decide
    rw [takeType_apply tt ids b s k h, if_neg (by rw [h1]; decide)]
    exact congrArg (fun r : Fin 2 => tt (ix2 r k)) (Fin.ext (by show (ids (ix2 b s)).toNat = 1; rw [h1]; rfl))

/-- The rows that are normalised, at (b, s, k): x plus the position row s + 1 plus the type row the id picks. -/
theorem emb_apply (x : S2x4096x1024.Idx → EReal) (ids : S2x4096.Idx → BitVec 32) (pos : S8192x1024.Idx → EReal)
    (tt : S2x1024.Idx → EReal) (b : Fin 2) (s : Fin 4096) (k : Fin 1024)
    (hid : ids (ix2 b s) = 0#32 ∨ ids (ix2 b s) = 1#32) :
    emb (F := Ideal) x ids pos tt (ix3 b s k)
      = Cert.RowSpec.refEmb (x (ix3 b s k)) (pos (ix2 (Cert.RowSpec.posRow s) k)) (tt (ix2 (0 : Fin 2) k)) (tt (ix2 (1 : Fin 2) k))
          (ids (ix2 b s)) := by
  show x (ix3 b s k) + takePos (F := Ideal) pos posIds (ix3 b s k) + takeType (F := Ideal) tt ids (ix3 b s k) = _
  rw [takePos_posIds_apply, takeType_ids_apply tt ids b s k hid]
  rfl

end Cert.ReferenceIdeal.RefValue

end
-- ==== Proof.RefNorm.lean ====
/-
  The reference's row normalisation read at an index, on the extended reals.

  For ANY array e of shape [2, 4096, 1024], entry (b, s, h) of the normalised array is the normalisation of the row
  e(b, s, ·) in the reference's spelling: the mean is (zero word + the row's sum) / 1024, kept as a column [2, 4096, 1] and
  spread back along the last axis; the centred row is squared, averaged the same way, the epsilon added, the root taken,
  the centred row divided by it, scaled by gamma(h) and shifted by beta(h).
-/
import proofs.«124012_g4166118277671_cont_sun_m_48_6_alg».proof.Proof.RefTerm
import proofs.«124012_g4166118277671_cont_sun_m_48_6_alg».proof.Proof.RowSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

variable {α : Type}

/-! ## The layout operations at an index -/

/-- An array [2, 4096] laid as a column [2, 4096, 1] reads, at (b, s, u), the operand at (b, s). -/
theorem col_apply (v : S2x4096.Idx → α) (b : Fin 2) (s : Fin 4096) (u : Fin 1) :
    broadcastInDim S2x4096x1 ![0, 1] bcast_S2x4096_S2x4096x1_0_1 v (ix3 b s u) = v (ix2 b s) := by
  refine broadcastInDim_apply _ _ v (ix3 b s u) (ix2 b s) fun a => ?_
  match a with
  | ⟨0, _⟩ => rfl
  | ⟨1, _⟩ => rfl

/-- A column [2, 4096, 1] spread along the last axis reads, at (b, s, k), the column at (b, s, 0). -/
theorem spread_apply (v : S2x4096x1.Idx → EReal) (b : Fin 2) (s : Fin 4096) (k : Fin 1024) :
    spread (F := Ideal) v (ix3 b s k) = v (ix3 b s (0 : Fin 1)) := by
  unfold spread
  refine broadcastInDim_apply _ _ v (ix3 b s k) (ix3 b s (0 : Fin 1)) fun a => ?_
  match a with
  | ⟨0, _⟩ => rfl
  | ⟨1, _⟩ => rfl
  | ⟨2, _⟩ => rfl

/-- A vector of 1024 entries spread over every row reads, at (b, s, k), the vector at k. -/
theorem spreadVec_apply (v : S1024.Idx → EReal) (b : Fin 2) (s : Fin 4096) (k : Fin 1024) :
    spreadVec (F := Ideal) v (ix3 b s k) = v (ix1 k) := by
  unfold spreadVec
  refine (broadcastInDim_apply _ _ _ (ix3 b s k) (ix3 (0 : Fin 1) (0 : Fin 1) k) fun a => ?_).trans
    (broadcastInDim_apply _ _ v (ix3 (0 : Fin 1) (0 : Fin 1) k) (ix1 k) fun a => ?_)
  · match a with
    | ⟨0, _⟩ => rfl
    | ⟨1, _⟩ => rfl
    | ⟨2, _⟩ => rfl
  · match a with
    | ⟨0, _⟩ => rfl

/-! ## The elementwise host operations and the splat constants at an index -/

/-- The host's quotient at an index is the quotient of the entries. -/
theorem hostDivf_apply {s : Shape} (a c : FVec Ideal s .f32) (i : s.Idx) : Host.divf a c i = Ideal.div (a i) (c i) := rfl
/-- The host's square root at an index is the root of the entry. -/
theorem hostSqrt_apply {s : Shape} (a : FVec Ideal s .f32) (i : s.Idx) : Host.sqrt a i = Ideal.sqrt (a i) := rfl
/-- A constant word spread over a column reads that word's value everywhere. -/
theorem constCol_apply (w : BitVec 32) (i : S2x4096x1.Idx) :
    broadcastInDim S2x4096x1 ![] bcast_S_S2x4096x1 (constant (F := Ideal) S_ .f32 w) i = Ideal.ofBits .f32 w := rfl

/-! ## The sum along the last axis -/

/-- The host's sum along the last axis of an array [2, 4096, 1024] from an initial value, at (b, s): the initial value plus the
    sum of the row (b, s, ·). -/
theorem rowSum_apply (e : S2x4096x1024.Idx → EReal) (init : EReal) (b : Fin 2) (s : Fin 4096) :
    Ideal.hostReduceAdd reducesTo_S2x4096x1024_S2x4096_d2 e init (ix2 b s) = init + ∑ k : Fin 1024, e (ix3 b s k) := by
  have hR : S2x4096x1024.Reduces [2] S2x4096 := by decide
  refine (Ideal.hostReduceAdd_single reducesTo_S2x4096x1024_S2x4096_d2 hR e init (ix2 b s)).trans ?_
  refine congrArg (init + ·) (Finset.sum_congr rfl fun k _ => congrArg e ?_)
  funext ax; apply Fin.ext
  match ax with
  | ⟨0, _⟩ => rfl
  | ⟨1, _⟩ => rfl
  | ⟨2, _⟩ => rfl

/-- The mean column at (b, s, u): the mean of the row (b, s, ·), its sum started from the zero word. -/
theorem meanCol_apply (e : S2x4096x1024.Idx → EReal) (b : Fin 2) (s : Fin 4096) (u : Fin 1) :
    meanCol (F := Ideal) e (ix3 b s u) = Cert.RowSpec.meanZ fun k => e (ix3 b s k) := by
  unfold meanCol
  rw [hostDivf_apply, col_apply, constCol_apply]
  show Ideal.div (Ideal.hostReduceAdd reducesTo_S2x4096x1024_S2x4096_d2 e (Ideal.ofBits .f32 0x00000000#32) (ix2 b s)) _ = _
  rw [rowSum_apply]
  rfl

/-! ## The normalisation -/

/-- The normalised array at (b, s, h): the normalisation of the row (b, s, ·) at h, with gamma(h) and beta(h). -/
theorem rowNorm_apply (e : S2x4096x1024.Idx → EReal) (gamma beta : S1024.Idx → EReal) (b : Fin 2) (s : Fin 4096) (h : Fin 1024) :
    rowNorm (F := Ideal) e gamma beta (ix3 b s h)
      = Cert.RowSpec.refRow (fun k => e (ix3 b s k)) (gamma (ix1 h)) (beta (ix1 h)) h := by
  unfold rowNorm
  simp only [addf_apply, mulf_apply, subf_apply, hostDivf_apply, hostSqrt_apply, spread_apply, spreadVec_apply, meanCol_apply,
    constCol_apply]
  rfl

end Cert.ReferenceIdeal.RefValue

end
-- ==== Proof.RefAt.lean ====
/-
  The reference's result read at an index, on the extended reals.

  The reference normalises the rows x + position rows + type rows. Entry (b, s, h) of its result is therefore the
  normalisation, in the reference's spelling, of the row whose entry k is x(b, s, k) + pos(s + 1, k) + the type row the id
  at (b, s) picks (row 0 for the id 0, row 1 for the id 1), taken at h with gamma(h) and beta(h) — provided every id is the
  word 0 or the word 1, so that the type look-up neither wraps, clamps nor fills.
-/
import proofs.«124012_g4166118277671_cont_sun_m_48_6_alg».proof.Proof.RefTake
import proofs.«124012_g4166118277671_cont_sun_m_48_6_alg».proof.Proof.RefNorm

noncomputable section

namespace Cert.ReferenceIdeal.RefValue

open Cert.ReferenceIdeal Cert.ReferenceIdeal.Gen Idealize.ShloMosaic Idealize.ShloMosaic.ValueIdx

/-- The reference's result at (b, s, h): the normalised row of x + position row s + 1 + picked type row, at h. -/
theorem refOut_apply (x : (⟨S2x4096x1024, .f32⟩ : BufTy).Contents (Elt Ideal)) (ids : (⟨S2x4096, .i32⟩ : BufTy).Contents (Elt Ideal))
    (pos : (⟨S8192x1024, .f32⟩ : BufTy).Contents (Elt Ideal)) (tt : (⟨S2x1024, .f32⟩ : BufTy).Contents (Elt Ideal))
    (gamma beta : (⟨S1024, .f32⟩ : BufTy).Contents (Elt Ideal))
    (hid : ∀ (b : Fin 2) (s : Fin 4096), ids (ix2 b s) = 0#32 ∨ ids (ix2 b s) = 1#32)
    (b : Fin 2) (s : Fin 4096) (h : Fin 1024) :
    refOut (F := Ideal) x ids pos tt gamma beta (ix3 b s h)
      = Cert.RowSpec.refRow
          (fun k => Cert.RowSpec.refEmb (x (ix3 b s k)) (pos (ix2 (Cert.RowSpec.posRow s) k)) (tt (ix2 (0 : Fin 2) k))
            (tt (ix2 (1 : Fin 2) k)) (ids (ix2 b s)))
          (gamma (ix1 h)) (beta (ix1 h)) h := by
  unfold refOut
  refine (rowNorm_apply (emb (F := Ideal) x ids pos tt) gamma beta b s h).trans ?_
  exact congrArg (fun f => Cert.RowSpec.refRow f (gamma (ix1 h)) (beta (ix1 h)) h)
    (funext fun k => emb_apply x ids pos tt b s k (hid b s))

end Cert.ReferenceIdeal.RefValue

end
-- ==== Proof.LibNormLawsTop.lean ====
/-
  Laws of the extended reals behind a layer normalisation written with a reciprocal square root
  against the same normalisation written as a quotient by the square root, WITHOUT any finiteness
  assumption on the normalised row.

  * For every extended real `y > 0` — the value `⊤` included — and every extended real `a`, the product
    `a · rsqrt y` is the quotient `a / sqrt y`: at a positive real both are `a · (√y)⁻¹`; at `⊤` the
    reciprocal root is `0` and the root is `⊤`, whose inverse is `0`, so both are `a · 0 = 0`.
  * A square `x · x` of an extended real is never negative (`⊥ · ⊥ = ⊤`), so a finite sum of squares
    is `≥ 0`, its quotient by the positive real 1024 is `≥ 0`, and adding a positive real gives a
    value `> 0`: the argument of the root in a layer normalisation over 1024 entries with the
    single-precision epsilon nearest to 1e-5 is positive whatever the entries are.
-/
import Idealize.ShloMosaic.PureOps.Ideal

noncomputable section

namespace Cert.Lib.NormLawsTop

open Idealize.ShloMosaic

/-- The product with the reciprocal root is the quotient by the root, for every positive extended real
    argument (the infinite one included) and every extended real numerator. -/
theorem mul_rsqrt_eq_div_sqrt_of_pos (a y : EReal) (hy : 0 < y) :
    a * Ideal.rsqrt y = Ideal.div a (Ideal.sqrt y) := by
  induction y using EReal.rec with
  | bot => exact absurd hy (not_lt.mpr bot_le)
  | top =>
    rw [Ideal.rsqrt_top, Ideal.sqrt_top]
    unfold Ideal.div
    rw [if_neg (by decide : (⊤ : EReal) ≠ 0), EReal.inv_top]
  | coe r =>
    have hr : 0 < r := by exact_mod_cast hy
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

/-- The square of an extended real is not negative. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- The single-precision word of 1024.0 denotes the real 1024. -/
theorem ofBits_1024 : Ideal.ofBits .f32 0x44800000#32 = ((1024 : ℝ) : EReal) := by
  simp [Ideal.ofBits, Ideal.ieee, -EReal.coe_mul]; norm_num

/-- The single-precision word nearest to 1e-5 denotes a positive real. -/
theorem ofBits_eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The mean of squares of any extended reals over 1024 entries, plus the epsilon, is positive. -/
theorem var_eps_pos {ι : Type} (s : Finset ι) (f : ι → EReal) :
    0 < Ideal.div (∑ k ∈ s, f k * f k) (Ideal.ofBits .f32 0x44800000#32) + Ideal.ofBits .f32 0x3727C5AC#32 := by
  obtain ⟨e, he, hE⟩ := ofBits_eps_pos
  rw [ofBits_1024, hE, Ideal.div_coe (by norm_num : (1024 : ℝ) ≠ 0)]
  have h0 : (0 : EReal) ≤ ∑ k ∈ s, f k * f k := Finset.sum_nonneg fun k _ => mul_self_nonneg (f k)
  have h1 : (0 : EReal) ≤ (∑ k ∈ s, f k * f k) * ((1 / 1024 : ℝ) : EReal) :=
    mul_nonneg h0 (by exact_mod_cast (by norm_num : (0 : ℝ) ≤ 1 / 1024))
  exact lt_of_lt_of_le (by exact_mod_cast he) (le_add_of_nonneg_left h1)

end Cert.Lib.NormLawsTop

end
-- ==== Proof.RowNormLaw.lean ====
/-
  Laws of the extended reals joining the two spellings of a normalised row of 1024 entries.

  * A sum started from the zero word is the bare sum, so the two means agree for every row.
  * The mean of the squares of the centred row is never negative, whatever the entries are (the square of an
    extended real is never negative, `⊥ · ⊥ = ⊤` included), and the epsilon word denotes a positive real; the
    argument of the root is therefore positive, and at a positive extended real — the infinite one included —
    the product with the reciprocal root is the quotient by the root.  No finiteness of the row is needed.
  * An entry of the row: for real table rows t0, t1 and an id word that is 0 or 1, t0 + id · (t1 − t0) is the row the
    id picks.  Here finiteness is needed: 0 · (t1 − t0) = 0 and t0 + (t1 − t0) = t1 fail at the infinities.
-/
import proofs.«124012_g4166118277671_cont_sun_m_48_6_alg».proof.Proof.RowSpec
import proofs.«124012_g4166118277671_cont_sun_m_48_6_alg».proof.Proof.LibNormLawsTop

noncomputable section

namespace Cert.RowNorm

open Idealize.ShloMosaic
open Cert.RowSpec

/-- The zero word denotes the extended real 0. -/
theorem Z_eq_zero : Z = 0 := by simp [Z, Ideal.ofBits, Ideal.ieee]

/-- A mean whose sum starts from the zero word is the mean of the bare sum. -/
theorem meanZ_eq_mean (e : Fin 1024 → EReal) : meanZ e = mean e := by
  unfold meanZ mean
  rw [Z_eq_zero, zero_add]

/-- The single-precision word nearest to 1e-12 denotes a positive real. -/
theorem ofBits_eps_pos : ∃ e : ℝ, 0 < e ∧ Ideal.ofBits .f32 0x2B8CBCCC#32 = (e : EReal) := by
  refine ⟨_, ?_, by simp [Ideal.ofBits, Ideal.ieee, -EReal.coe_mul]; rfl⟩
  norm_num

/-- The mean of squares of any extended reals over 1024 entries, plus the epsilon, is positive. -/
theorem var_eps_pos (f : Fin 1024 → EReal) : 0 < mean (fun k => f k * f k) + E := by
  obtain ⟨e, he, hE⟩ := ofBits_eps_pos
  unfold mean
  rw [show E = (e : EReal) from hE, show W = ((1024 : ℝ) : EReal) from Cert.Lib.NormLawsTop.ofBits_1024,
    Ideal.div_coe (by norm_num : (1024 : ℝ) ≠ 0)]
  have h0 : (0 : EReal) ≤ ∑ k, f k * f k := Finset.sum_nonneg fun k _ => Cert.Lib.NormLawsTop.mul_self_nonneg (f k)
  have h1 : (0 : EReal) ≤ (∑ k, f k * f k) * ((1 / 1024 : ℝ) : EReal) :=
    mul_nonneg h0 (by exact_mod_cast (by norm_num : (0 : ℝ) ≤ 1 / 1024))
  exact lt_of_lt_of_le (by exact_mod_cast he) (le_add_of_nonneg_left h1)

/-- The two spellings of the normalised row agree, for every row of extended reals. -/
theorem kerRow_eq_refRow (e : Fin 1024 → EReal) (g b : EReal) (h : Fin 1024) :
    kerRow e g b h = refRow e g b h := by
  unfold kerRow refRow
  rw [meanZ_eq_mean e, meanZ_eq_mean (fun k => (e k - mean e) * (e k - mean e)),
    Cert.Lib.NormLawsTop.mul_rsqrt_eq_div_sqrt_of_pos _ _ (var_eps_pos fun k => e k - mean e)]

/-- The two spellings of an entry of the row agree at real entries and an id word that is 0 or 1. -/
theorem kerEmb_eq_refEmb (x p t0 t1 : ℝ) (w : BitVec 32) (hw : w = 0#32 ∨ w = 1#32) :
    kerEmb (x : EReal) (p : EReal) (t0 : EReal) (t1 : EReal) w
      = refEmb (x : EReal) (p : EReal) (t0 : EReal) (t1 : EReal) w := by
  unfold kerEmb refEmb
  rcases hw with rfl | rfl
  · have hi : (0#32 : BitVec 32).toInt = 0 := by decide
    rw [hi, if_pos rfl, ← EReal.coe_sub, ← EReal.coe_mul]
    repeat rw [← EReal.coe_add]
    congr 1
    push_cast
    ring
  · have hi : (1#32 : BitVec 32).toInt = 1 := by decide
    have hne : ¬ ((1#32 : BitVec 32) = 0#32) := by decide
    rw [hi, if_neg hne, ← EReal.coe_sub, ← EReal.coe_mul]
    repeat rw [← EReal.coe_add]
    congr 1
    push_cast
    ring

/-- The same with the finiteness of the four entries as hypotheses. -/
theorem kerEmb_eq_refEmb' (x p t0 t1 : EReal) (w : BitVec 32) (hx : ∃ r : ℝ, x = r) (hp : ∃ r : ℝ, p = r)
    (h0 : ∃ r : ℝ, t0 = r) (h1 : ∃ r : ℝ, t1 = r) (hw : w = 0#32 ∨ w = 1#32) :
    kerEmb x p t0 t1 w = refEmb x p t0 t1 w := by
  obtain ⟨x, rfl⟩ := hx
  obtain ⟨p, rfl⟩ := hp
  obtain ⟨t0, rfl⟩ := h0
  obtain ⟨t1, rfl⟩ := h1
  exact kerEmb_eq_refEmb x p t0 t1 w hw

end Cert.RowNorm

end
-- ==== Proof.Bridge.lean ====
/-
  The reference's result array is the specified result array.

  Entry (b, s, h) of the reference's result is the normalised row, in the reference's spelling, of the row
  x(b, s, ·) + pos(s + 1, ·) + the type row the id picks. The specified array holds the normalised row in the kernel's
  spelling of the row x(b, s, ·) + pos(s + 1, ·) + type row 0 + id · (type row 1 − type row 0). The two spellings of the
  normalisation agree on every row of extended reals; the two spellings of a row entry agree when x, the position table and
  the type table hold real numbers and the id is the word 0 or 1. The scale and the shift need no finiteness.
-/
import proofs.«124012_g4166118277671_cont_sun_m_48_6_alg».proof.Proof.RefAt
import proofs.«124012_g4166118277671_cont_sun_m_48_6_alg».proof.Proof.RowNormLaw
import proofs.«124012_g4166118277671_cont_sun_m_48_6_alg».proof.Proof.OutSpec

noncomputable section

namespace Cert.Bridge

open Cert.ReferenceIdeal Idealize.ShloMosaic Idealize.ShloMosaic.ValueIdx

/-- The reference's result of six arguments — real x, real tables, ids 0 or 1 — is the specified result array. -/
theorem refOut_eq_kerOut (x : (⟨S2x4096x1024, .f32⟩ : BufTy).Contents (Elt Ideal)) (ids : (⟨S2x4096, .i32⟩ : BufTy).Contents (Elt Ideal))
    (pos : (⟨S8192x1024, .f32⟩ : BufTy).Contents (Elt Ideal)) (tt : (⟨S2x1024, .f32⟩ : BufTy).Contents (Elt Ideal))
    (gamma beta : (⟨S1024, .f32⟩ : BufTy).Contents (Elt Ideal))
    (hx : ∀ i, ∃ r : ℝ, x i = (r : EReal)) (hpos : ∀ i, ∃ r : ℝ, pos i = (r : EReal)) (htt : ∀ i, ∃ r : ℝ, tt i = (r : EReal))
    (hid : ∀ i, ids i = 0#32 ∨ ids i = 1#32) :
    Cert.ReferenceIdeal.RefValue.refOut (F := Ideal) x ids pos tt gamma beta = Cert.RowSpec.kerOut x ids pos tt gamma beta := by
  funext i
  obtain ⟨b, s, h, rfl⟩ : ∃ (b : Fin 2) (s : Fin 4096) (h : Fin 1024), i = ix3 b s h := ⟨i 0, i 1, i 2, eq_ix3 i⟩
  refine (Cert.ReferenceIdeal.RefValue.refOut_apply x ids pos tt gamma beta (fun b s => hid (ix2 b s)) b s h).trans ?_
  refine Eq.trans ?_
    (Cert.RowNorm.kerRow_eq_refRow (Cert.RowSpec.kerE x ids pos tt b s) (gamma (ix1 h)) (beta (ix1 h)) h).symm
  refine congrArg (fun f => Cert.RowSpec.refRow f (gamma (ix1 h)) (beta (ix1 h)) h) (funext fun k => ?_)
  exact (Cert.RowNorm.kerEmb_eq_refEmb' _ _ _ _ _ (hx _) (hpos _) (htt _) (htt _) (hid _)).symm

end Cert.Bridge

end
-- ==== Proof.PreFacts.lean ====
/-
  What the precondition on the six argument arrays says, entry by entry.

  The precondition is a conjunction of seven statements "every entry of this array satisfies ...", each computed as an
  `and`-fold over the array that must come out 1:
  * for the five real-valued arrays (the input, the two tables, the scale and the shift): |a| < +∞ at every entry a.
    On the extended reals |a| is max a (−a), which is +∞ at both infinities, so the strict bound leaves exactly the
    reals: every entry is a real number;
  * for the array of ids: 0 ≤ w and w < 2 at every entry w, both comparisons signed.  A 32-bit word whose signed
    reading lies in [0, 2) is the word 0 or the word 1.
  An `and` of bits is 1 only when both are 1, and an `and`-fold that is 1 met a 1 at every entry.
-/
import proofs.«124012_g4166118277671_cont_sun_m_48_6_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.PreFacts

open Idealize.ShloMosaic Cert.Pre_finite_inputs Cert.Pre_finite_inputs.Gen

/-- The shape of rank 0 has one index. -/
instance : Subsingleton S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- An extended real whose absolute value max x (−x) is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- A 32-bit word whose signed reading is at least that of the word 0 and below that of the word 2 is 0 or 1. -/
theorem word01 (w : BitVec 32) (h0 : (0#32 : BitVec 32).toInt ≤ w.toInt) (h2 : w.toInt < (2#32 : BitVec 32).toInt) :
    w = 0#32 ∨ w = 1#32 := by
  have e0 : (0#32 : BitVec 32).toInt = 0 := by decide
  have e1 : (1#32 : BitVec 32).toInt = 1 := by decide
  have e2 : (2#32 : BitVec 32).toInt = 2 := by decide
  rw [e0] at h0
  rw [e2] at h2
  have hw : w.toInt = 0 ∨ w.toInt = 1 := by omega
  rcases hw with hw | hw
  · exact Or.inl (BitVec.eq_of_toInt_eq (by rw [hw, e0]))
  · exact Or.inr (BitVec.eq_of_toInt_eq (by rw [hw, e1]))

variable (a0 : (⟨S2x4096x1024, .f32⟩ : BufTy).Contents (Elt Ideal))
  (a1 : (⟨S2x4096, .i32⟩ : BufTy).Contents (Elt Ideal))
  (a2 : (⟨S8192x1024, .f32⟩ : BufTy).Contents (Elt Ideal))
  (a3 : (⟨S2x1024, .f32⟩ : BufTy).Contents (Elt Ideal))
  (a4 : (⟨S1024, .f32⟩ : BufTy).Contents (Elt Ideal))
  (a5 : (⟨S1024, .f32⟩ : BufTy).Contents (Elt Ideal))

/-- The precondition split into its seven entrywise statements. -/
theorem split (h : Cert.Pre_finite_inputs.fn (F := Ideal) a0 a1 a2 a3 a4 a5 = fun _ => 1#1) :
    (∀ i, Ideal.cmp .olt (max (a0 i) (-(a0 i))) (Ideal.ofBits .f32 0x7F800000#32) = 1#1)
    ∧ (∀ i, Ideal.cmp .olt (max (a2 i) (-(a2 i))) (Ideal.ofBits .f32 0x7F800000#32) = 1#1)
    ∧ (∀ i, Ideal.cmp .olt (max (a3 i) (-(a3 i))) (Ideal.ofBits .f32 0x7F800000#32) = 1#1)
    ∧ (∀ i, Ideal.cmp .olt (max (a4 i) (-(a4 i))) (Ideal.ofBits .f32 0x7F800000#32) = 1#1)
    ∧ (∀ i, Ideal.cmp .olt (max (a5 i) (-(a5 i))) (Ideal.ofBits .f32 0x7F800000#32) = 1#1)
    ∧ (∀ i, IntOp.cmpi .sge (a1 i) 0#32 = 1#1)
    ∧ (∀ i, IntOp.cmpi .slt (a1 i) 2#32 = 1#1) := by
  have e := congrFun h ValueIdx.ix0
  unfold Cert.Pre_finite_inputs.fn Cert.Pre_finite_inputs.fn_part1 at e
  dsimp only at e
  simp only [andi, IntOp.andi_eq_one] at e
  obtain ⟨⟨⟨⟨⟨⟨h0, h2⟩, h3⟩, h4⟩, h5⟩, hge⟩, hlt⟩ := e
  exact ⟨fun i => Host.reduce_andi_all _ _ _ _ _ h0 i, fun i => Host.reduce_andi_all _ _ _ _ _ h2 i,
    fun i => Host.reduce_andi_all _ _ _ _ _ h3 i, fun i => Host.reduce_andi_all _ _ _ _ _ h4 i,
    fun i => Host.reduce_andi_all _ _ _ _ _ h5 i, fun i => Host.reduce_andi_all _ _ _ _ _ hge i,
    fun i => Host.reduce_andi_all _ _ _ _ _ hlt i⟩

/-- Every entry of the first array is a real number. -/
theorem finite0 (h : Cert.Pre_finite_inputs.fn (F := Ideal) a0 a1 a2 a3 a4 a5 = fun _ => 1#1) :
    ∀ i, ∃ r : ℝ, a0 i = (r : EReal) :=
  fun i => real_of_abs_lt_inf _ ((split a0 a1 a2 a3 a4 a5 h).1 i)

/-- Every entry of the third array is a real number. -/
theorem finite2 (h : Cert.Pre_finite_inputs.fn (F := Ideal) a0 a1 a2 a3 a4 a5 = fun _ => 1#1) :
    ∀ i, ∃ r : ℝ, a2 i = (r : EReal) :=
  fun i => real_of_abs_lt_inf _ ((split a0 a1 a2 a3 a4 a5 h).2.1 i)

/-- Every entry of the fourth array is a real number. -/
theorem finite3 (h : Cert.Pre_finite_inputs.fn (F := Ideal) a0 a1 a2 a3 a4 a5 = fun _ => 1#1) :
    ∀ i, ∃ r : ℝ, a3 i = (r : EReal) :=
  fun i => real_of_abs_lt_inf _ ((split a0 a1 a2 a3 a4 a5 h).2.2.1 i)

/-- Every entry of the fifth array is a real number. -/
theorem finite4 (h : Cert.Pre_finite_inputs.fn (F := Ideal) a0 a1 a2 a3 a4 a5 = fun _ => 1#1) :
    ∀ i, ∃ r : ℝ, a4 i = (r : EReal) :=
  fun i => real_of_abs_lt_inf _ ((split a0 a1 a2 a3 a4 a5 h).2.2.2.1 i)

/-- Every entry of the sixth array is a real number. -/
theorem finite5 (h : Cert.Pre_finite_inputs.fn (F := Ideal) a0 a1 a2 a3 a4 a5 = fun _ => 1#1) :
    ∀ i, ∃ r : ℝ, a5 i = (r : EReal) :=
  fun i => real_of_abs_lt_inf _ ((split a0 a1 a2 a3 a4 a5 h).2.2.2.2.1 i)

/-- Every entry of the second array, the ids, is the word 0 or the word 1. -/
theorem ids01 (h : Cert.Pre_finite_inputs.fn (F := Ideal) a0 a1 a2 a3 a4 a5 = fun _ => 1#1) :
    ∀ i, a1 i = 0#32 ∨ a1 i = 1#32 :=
  fun i => word01 _ (IntOp.cmpi_sge.1 ((split a0 a1 a2 a3 a4 a5 h).2.2.2.2.2.1 i))
    (IntOp.cmpi_slt.1 ((split a0 a1 a2 a3 a4 a5 h).2.2.2.2.2.2 i))

end Cert.PreFacts

end
-- ==== Proof.Assemble.lean ====
/-
  The two claims about the reference, from the two runs.

  Suppose the kernel's run ends with the specified result array of its six arguments in its result buffer and the arguments
  unchanged, and the reference's run ends with the reference's result term of its six arguments in its result buffer and
  the arguments unchanged. Then:
  * the reference runs and leaves its arguments unchanged (the second half of its run's conclusion);
  * from memories that agree on the six arguments, of which the kernel's satisfy the precondition, both programs run and
    end with equal results: the common value is the specified array of the kernel's arguments; the reference's result term
    of the same arguments equals it because the precondition makes x and the two tables real and every id 0 or 1.
-/
import proofs.«124012_g4166118277671_cont_sun_m_48_6_alg».proof.Defs
import proofs.«124012_g4166118277671_cont_sun_m_48_6_alg».proof.Proof.Gen.KernelIdeal
import proofs.«124012_g4166118277671_cont_sun_m_48_6_alg».proof.Proof.Gen.ReferenceIdeal
import proofs.«124012_g4166118277671_cont_sun_m_48_6_alg».proof.Proof.Gen.Pre_finite_inputs
import proofs.«124012_g4166118277671_cont_sun_m_48_6_alg».proof.Proof.Bridge
import proofs.«124012_g4166118277671_cont_sun_m_48_6_alg».proof.Proof.PreFacts

noncomputable section

namespace Cert.Assemble

open Idealize.ShloMosaic Idealize.SL.Sem

/-- The reference runs and its six arguments end unchanged. -/
theorem frame_ref_of
    (href : ∀ (m' : (ℓ : Loc Cert.ReferenceIdeal.nD Cert.ReferenceIdeal.τ Cert.ReferenceIdeal.sig) → Buf (Elt Ideal) ℓ) (ρ' : Dev Cert.ReferenceIdeal.nD → PrngReg),
        θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v32) = Cert.ReferenceIdeal.RefValue.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))) :
    Cert.frame_ReferenceIdeal := fun m ρ _ =>
  (θ_run Cert.ReferenceIdeal.defs _ _).mono (fun _ h c => (h c).2) (href m ρ)

/-- From memories agreeing on the arguments, the kernel's satisfying the precondition, both programs run, end with equal
    results and leave their arguments unchanged. -/
theorem algebraic_of
    (hker : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v4) = Cert.RowSpec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)))
    (href : ∀ (m' : (ℓ : Loc Cert.ReferenceIdeal.nD Cert.ReferenceIdeal.τ Cert.ReferenceIdeal.sig) → Buf (Elt Ideal) ℓ) (ρ' : Dev Cert.ReferenceIdeal.nD → PrngReg),
        θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v32) = Cert.ReferenceIdeal.RefValue.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))) :
    Cert.algebraic_KernelIdeal_ReferenceIdeal := by
  intro m ρ m' ρ' hpre hagree
  refine ⟨fun c => Cert.RowSpec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), hker m ρ, ?_⟩
  refine (θ_run Cert.ReferenceIdeal.defs _ _).mono (fun _ h c => ⟨(h c).1.trans ?_, (h c).2⟩) (href m' ρ')
  obtain ⟨e0, e1, e2, e3, e4, e5⟩ := hagree c
  rw [e0, e1, e2, e3, e4, e5]
  exact Cert.Bridge.refOut_eq_kerOut _ _ _ _ _ _ (Cert.PreFacts.finite0 _ _ _ _ _ _ (hpre c))
    (Cert.PreFacts.finite2 _ _ _ _ _ _ (hpre c)) (Cert.PreFacts.finite3 _ _ _ _ _ _ (hpre c))
    (Cert.PreFacts.ids01 _ _ _ _ _ _ (hpre c))

end Cert.Assemble

end
-- ==== Proof.lean ====
/-
  The equivalence of a fused embedding-plus-layer-normalisation kernel with its array-level reference, over the extended reals.

  Both programs take x : [2, 4096, 1024], integer type ids : [2, 4096], a position table [8192, 1024], a type table [2, 1024],
  gamma and beta : [1024], and return, for every batch row b and sequence position s, the normalisation of the row
  e = x(b, s, ·) + pos(s + 1, ·) + type(ids(b, s), ·): (e − mean e) / √(mean (e − mean e)² + ε) · gamma + beta.

  The reference gathers the position rows at the ids s + 1 and the type rows at ids(b, s) (`take`, which wraps a negative
  index and fills a row whose index is out of range with the not-a-number word), sums from a zero initial value and divides
  by the square root. The kernel works on eight blocks of 512 sequence positions: it streams the position table through a
  two-slot buffer and reads the block's rows shifted down by one, forms the type row as row 0 + id · (row 1 − row 0), and
  multiplies by the reciprocal square root. Under the precondition — every float input finite, every id 0 or 1 — the two
  agree entry by entry:
  * the id-weighted difference of the two type rows IS the picked row (real entries, id ∈ {0, 1});
  * the product with the reciprocal root IS the quotient by the root, because the mean of squares plus ε is positive (no
    finiteness needed there);
  * a sum started from zero is the bare sum.
  The kernel's value is read off its block-by-block run (KerSlot, KerOut, KerRows, KerBlocks, KerFinal); the reference's run is
  its operations listed in order (RefTerm, RefRun) and read at an index (RefTake, RefNorm, RefAt); Bridge joins the two
  arrays and Assemble states the claims from the two runs. The word-level kernel is not rewritten by idealisation (no
  operation of it is replaced), so that conjunct holds trivially.
-/
import proofs.«124012_g4166118277671_cont_sun_m_48_6_alg».proof.Defs
import proofs.«124012_g4166118277671_cont_sun_m_48_6_alg».proof.Proof.Gen.Kernel
import proofs.«124012_g4166118277671_cont_sun_m_48_6_alg».proof.Proof.Gen.Kernel.Frame
import proofs.«124012_g4166118277671_cont_sun_m_48_6_alg».proof.Proof.Gen.KernelIdeal
import proofs.«124012_g4166118277671_cont_sun_m_48_6_alg».proof.Proof.Gen.KernelIdeal.Frame
import proofs.«124012_g4166118277671_cont_sun_m_48_6_alg».proof.Proof.Gen.KernelIdeal.Value
import proofs.«124012_g4166118277671_cont_sun_m_48_6_alg».proof.Proof.Gen.ReferenceIdeal
import proofs.«124012_g4166118277671_cont_sun_m_48_6_alg».proof.Proof.Gen.Pre_finite_inputs
import proofs.«124012_g4166118277671_cont_sun_m_48_6_alg».proof.Proof.KerFinal
import proofs.«124012_g4166118277671_cont_sun_m_48_6_alg».proof.Proof.RefRun
import proofs.«124012_g4166118277671_cont_sun_m_48_6_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Assemble.frame_ref_of (fun m ρ => Cert.ReferenceIdeal.RefValue.run (F := Ideal) m ρ),
    trivial,
    Cert.Assemble.algebraic_of (fun m ρ => Cert.KernelIdeal.Final.run m ρ)
      (fun m ρ => Cert.ReferenceIdeal.RefValue.run (F := Ideal) m ρ)⟩

end Cert.Proof

end
